-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S512x128 : Shape := ⟨2, ![512, 128]⟩
abbrev S100000x1 : Shape := ⟨2, ![100000, 1]⟩
abbrev S1x10 : Shape := ⟨2, ![1, 10]⟩
abbrev S512x10 : Shape := ⟨2, ![512, 10]⟩

abbrev nBuf : Space → Nat
  | .hbm => 61
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S_, .f32⟩
  | .hbm, ⟨54, _⟩ => ⟨S512x128, .f32⟩
  | .hbm, ⟨55, _⟩ => ⟨S100000x1, .i32⟩
  | .hbm, ⟨56, _⟩ => ⟨S512x128, .f32⟩
  | .hbm, ⟨57, _⟩ => ⟨S1x128, .f32⟩
  | .hbm, ⟨58, _⟩ => ⟨S1x128, .f32⟩
  | .hbm, ⟨59, _⟩ => ⟨S1x10, .f32⟩
  | .hbm, ⟨60, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S512x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x10, .f32⟩
  | .local _ .vmem, ⟨26, _⟩ => ⟨S1x10, .f32⟩
  | .local _ .vmem, ⟨27, _⟩ => ⟨S512x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x10.size a ≤ S128x10.size a
  hwx2_5 : ∀ i : grid2.Coords, EltTy.bits .f32 = 32 ∨ (Rect.block (s := S128x10) S128x10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x10.size a ≤ S1x10.size a
  hwx2_6 : ∀ i : grid2.Coords, EltTy.bits .f32 = 32 ∨ (Rect.block (s := S1x10) S1x10.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x10.size a ≤ S512x10.size a
  hwx2_7 : ∀ i : grid2.Coords, EltTy.bits .f32 = 32 ∨ (Rect.block (s := S512x10) S512x10.size (cc2_transform_7 i) (hinb2_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S128x10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S1x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v36) S512x10.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S512x128 : Shape := ⟨2, ![512, 128]⟩
abbrev S100000x1 : Shape := ⟨2, ![100000, 1]⟩
abbrev S512x10 : Shape := ⟨2, ![512, 10]⟩
abbrev S1x10 : Shape := ⟨2, ![1, 10]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S512x128, .f32⟩
  | .hbm, ⟨79, _⟩ => ⟨S100000x1, .i32⟩
  | .hbm, ⟨80, _⟩ => ⟨S512x128, .f32⟩
  | .hbm, ⟨81, _⟩ => ⟨S512x128, .f32⟩
  | .hbm, ⟨82, _⟩ => ⟨S1x128, .f32⟩
  | .hbm, ⟨83, _⟩ => ⟨S512x128, .f32⟩
  | .hbm, ⟨84, _⟩ => ⟨S512x128, .f32⟩
  | .hbm, ⟨85, _⟩ => ⟨S_, .f32⟩
  | .hbm, ⟨86, _⟩ => ⟨S512x128, .f32⟩
  | .hbm, ⟨87, _⟩ => ⟨S512x128, .f32⟩
  | .hbm, ⟨88, _⟩ => ⟨S512x128, .f32⟩
  | .hbm, ⟨89, _⟩ => ⟨S1x128, .f32⟩
  | .hbm, ⟨90, _⟩ => ⟨S512x128, .f32⟩
  | .hbm, ⟨91, _⟩ => ⟨S512x128, .f32⟩
  | .hbm, ⟨92, _⟩ => ⟨S_, .f32⟩
  | .hbm, ⟨93, _⟩ => ⟨S512x128, .f32⟩
  | .hbm, ⟨94, _⟩ => ⟨S512x128, .f32⟩
  | .hbm, ⟨95, _⟩ => ⟨S512x10, .f32⟩
  | .hbm, ⟨96, _⟩ => ⟨S1x10, .f32⟩
  | .hbm, ⟨97, _⟩ => ⟨S512x10, .f32⟩
  | .hbm, ⟨98, _⟩ => ⟨S512x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_c_1 : Ref sig .tc := ⟨.hbm, 49, rfl⟩
abbrev main_v25 : Ref sig .tc := ⟨.hbm, 50, rfl⟩
abbrev main_v26 : Ref sig .tc := ⟨.hbm, 51, rfl⟩
abbrev main_c_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call2_cst : Ref sig .tc := ⟨.hbm, 67, rfl⟩
abbrev main_call2_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call3_cst : Ref sig .tc := ⟨.hbm, 74, rfl⟩
abbrev main_call3_v0 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call4_cst : Ref sig .tc := ⟨.hbm, 85, rfl⟩
abbrev main_call4_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call5_cst : Ref sig .tc := ⟨.hbm, 92, rfl⟩
abbrev main_call5_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel's run, with its result named.

  The program is six segments: a stretch of host operations, a pipelined region, a stretch, a region, a stretch, a
  region.  The buffer contents at the seven segment boundaries form a fold from the launch memory: a stretch applies
  its operations in order, and a region leaves each of its arrays at what its write-backs leave and every other
  buffer as it was.  Every weakly fair execution terminates with every unscoped buffer at the last boundary's
  contents (`run_held`).  Read at the result buffer, that names the result; read at an argument, the fold walks back
  to the launch memory, since no operation and no region writes an argument (`run_last`).
-/
import proofs.«124589_j40802189312202_1_alg».proof.Proof.Gen.KernelIdeal.Frame

set_option maxRecDepth 16384

noncomputable section

namespace Cert.KernelIdeal.Gin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement, which takes
-- unfolding plain definitions in a metavariable's type
set_option backward.isDefEq.respectTransparency.types false in
/-- Every weakly fair execution of the program terminates, nothing faulting, with every unscoped buffer of every
    core at the last boundary's contents.  The segments, their thread states and the program's equation with the
    segments' run are the generated ones; supplied here: the launch element owns the pipelines' staging cells; the
    first thread state is what the launch deals each core (its unscoped buffers at the launch memory, its generator
    register, nothing owed); the thread states chain as stated; and the last thread state, which holds every
    unscoped buffer at the last boundary's contents, is read against the final memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by
      simp only [segs, Pipeline.Seg.pipes_host, Pipeline.Seg.pipes_region, Pipeline.Seg.pipes_nil]
      decide)
    (O₀ := 0) (hL := fun _ _ => rfl) (G := fun _ => iprop(emp))
    (u₀ := initOf (Pipeline.cells cfgs cellOf_inj) (Pipeline.launchToks cfgs cellOf_inj))
    (hu₀ := by
      -- the launch element IS the pipelines' initial element, and no core needs a ghost resource of its own
      iintro Hown
      imodintro
      isplitl [Hown]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hown
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c))
    (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
            = StableHlo.held (c : Thread nD τ) (Pipeline.ucRefs τ sig) (W0 m ρ c)
          from Pipeline.unscopedBufs_held c (W0 m ρ c)]
      iintro ⟨⟨Hheld, -, Howes, -, Hprng, -⟩, -⟩
      imodintro
      isplitl [Hheld]
      · iexact Hheld
      isplitl [Hprng]
      · iexists _
        iexact Hprng
      · iexists ∅
        iexact Howes)
    (QY := fun c s => ∀ b ∈ Pipeline.ucRefs τ sig, s.mem (((c : Thread nD τ)).1, b) = W6 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W6 m ρ c) s')
      isplitl [Hheld] <;> iassumption)
    (hQ := fun s h => h)

/-- Every weakly fair execution terminates, nothing faulting, with the result buffer at the last boundary's contents
    and the argument arrays as launched. -/
theorem run_last : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v36 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c)⟩)
    (run_held m ρ)

end Cert.KernelIdeal.Gin

end
-- ==== Proof.Spec.lean ====
/-
  The mathematics of the network, over the extended reals, index by index, with no program in sight.

  A dense layer sends a row `z r ·` to `(∑ k, z r k · w k j) + b j`; `relu` is the maximum with zero.  One
  message-passing layer applies two dense layers, each followed by `relu`, to the sum of the node features and
  their neighbourhood aggregate; the head applies two such dense layers with `relu` and a last dense layer
  without it to the pooled graph features.  Both the tiled kernels and the untiled reference compute these
  functions: the contraction index `k` is never split, so no rearrangement of a sum is involved and nothing
  here needs the entries to be finite.
-/
import Idealize.ShloMosaic.PureOps.Ideal
import Idealize.ShloMosaic.Lib.ValueIdx

noncomputable section

namespace Cert.Gin

open Idealize.ShloMosaic Idealize.ShloMosaic.ValueIdx

/-- A rank-2 array of extended reals with `r` rows and `c` columns. -/
abbrev Arr2 (r c : Nat) : Type := (⟨2, ![r, c]⟩ : Shape).Idx → EReal
/-- A rank-1 array of extended reals of length `n`. -/
abbrev Arr1 (n : Nat) : Type := (⟨1, ![n]⟩ : Shape).Idx → EReal

/-- A dense layer: entry `(r, j)` is `(∑ k, z (r, k) · w (k, j)) + b j`. -/
def dense {R K C : Nat} (z : Arr2 R K) (w : Arr2 K C) (b : Arr1 C) : Arr2 R C :=
  fun i => (∑ k : Fin K, z (ix2 (i 0) k) * w (ix2 k (i 1))) + b (ix1 (i 1))

/-- The maximum with zero, entry by entry. -/
def relu {R C : Nat} (z : Arr2 R C) : Arr2 R C := fun i => max (z i) 0

/-- One message-passing layer: `relu (dense (relu (dense (z + a) w1 b1)) w2 b2)`, where `a` is the
    neighbourhood aggregate of `z`. -/
def layer {R : Nat} (z a : Arr2 R 128) (w1 : Arr2 128 128) (b1 : Arr1 128) (w2 : Arr2 128 128) (b2 : Arr1 128) :
    Arr2 R 128 :=
  relu (dense (relu (dense (fun i => z i + a i) w1 b1)) w2 b2)

/-- The head on the pooled features: `dense (relu (dense (relu (dense g w1 b1)) w2 b2)) w3 b3`. -/
def head (g : Arr2 512 128) (w1 : Arr2 128 128) (b1 : Arr1 128) (w2 : Arr2 128 128) (b2 : Arr1 128)
    (w3 : Arr2 128 10) (b3 : Arr1 10) : Arr2 512 10 :=
  dense (relu (dense (relu (dense g w1 b1)) w2 b2)) w3 b3

theorem dense_apply {R K C : Nat} (z : Arr2 R K) (w : Arr2 K C) (b : Arr1 C) (p : Fin R) (q : Fin C) :
    dense z w b (ix2 p q) = (∑ k : Fin K, z (ix2 p k) * w (ix2 k q)) + b (ix1 q) := rfl

theorem relu_apply {R C : Nat} (z : Arr2 R C) (i : (⟨2, ![R, C]⟩ : Shape).Idx) : relu z i = max (z i) 0 := rfl

theorem layer_apply {R : Nat} (z a : Arr2 R 128) (w1 : Arr2 128 128) (b1 : Arr1 128) (w2 : Arr2 128 128)
    (b2 : Arr1 128) (p : Fin R) (q : Fin 128) :
    layer z a w1 b1 w2 b2 (ix2 p q)
      = max ((∑ k : Fin 128,
            max ((∑ k' : Fin 128, (z (ix2 p k') + a (ix2 p k')) * w1 (ix2 k' k)) + b1 (ix1 k)) 0 * w2 (ix2 k q))
          + b2 (ix1 q)) 0 := rfl

theorem head_apply (g : Arr2 512 128) (w1 : Arr2 128 128) (b1 : Arr1 128) (w2 : Arr2 128 128) (b2 : Arr1 128)
    (w3 : Arr2 128 10) (b3 : Arr1 10) (p : Fin 512) (q : Fin 10) :
    head g w1 b1 w2 b2 w3 b3 (ix2 p q)
      = (∑ k : Fin 128,
          max ((∑ k' : Fin 128,
              max ((∑ k'' : Fin 128, g (ix2 p k'') * w1 (ix2 k'' k')) + b1 (ix1 k')) 0 * w2 (ix2 k' k))
            + b2 (ix1 k)) 0 * w3 (ix2 k q))
        + b3 (ix1 q) := rfl

end Cert.Gin

end
-- ==== Proof.LayerPayload.lean ====
/-
  The value a message-passing layer's kernel body stores, read at an entry of its block.

  The body adds the block of node features and the block of their aggregates, multiplies by the first weight matrix,
  adds the first bias, takes the maximum with zero, multiplies by the second weight matrix, adds the second bias and
  takes the maximum with zero again.  Each product starts from a zero accumulator, so its entry `(p, q)` is the sum
  over the 128 contracted columns of the products of the entries; a bias is a 1×128 row repeated down the rows, so at
  `(p, q)` it is the row's entry `q`; narrowing to a shorter float format before a product is the identity on the
  extended reals; sums and maxima are entry by entry.
-/
import proofs.«124589_j40802189312202_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gin

open Cert.KernelIdeal Cert.KernelIdeal.Gen Idealize.ShloMosaic Idealize.ShloMosaic.TcCoe Idealize.SL.Sem
open Idealize.ShloMosaic.ValueIdx
open Idealize.ShloMosaic.Pipeline (Dat)

namespace LayerPayload

/-! ## The contraction of a 5000x128 block with a 128x128 matrix

The dimension numbers contract the block's column axis with the matrix's row axis and keep the block's rows and the
matrix's columns.  So at output index `(i 0, i 1)` and contraction index `c` the left operand is read at
`(i 0, c)` and the right operand at `(c, i 1)`. -/

/-- The left index keeps the output row. -/
theorem lhs_0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- The left index's column is the contraction coordinate. -/
theorem lhs_1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
/-- The right index's row is the contraction coordinate. -/
theorem rhs_0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
/-- The right index keeps the output column. -/
theorem rhs_1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product with a zero accumulator, read at row `p`, column `q`: `∑ k, l (p, k) · r (k, q)`.  The sum
    over the one-axis contraction index set is re-indexed by its single coordinate; no term is moved or regrouped. -/
theorem mm_apply {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The bias row, a 1x128 array repeated down the 5000 rows, read at `(p, q)` is its entry `(0, q)`. -/
theorem bias_apply (x : Vec Ideal S1x128 .f32) (h : S1x128.ShapeCasts S1x128) (h' : S1x128.Broadcasts S5000x128)
    (p : Fin 5000) (q : Fin 128) :
    broadcastTo S5000x128 (shapeCast S1x128 x h) h' (ix2 p q) = x (ix2 (0 : Fin 1) q) := by
  rw [shapeCast_self]
  exact broadcastTo_1b_ab_apply x h' p q

/-- One dense layer followed by the maximum with zero, read at `(p, q)`:
    `max ((∑ k, l (p, k) · r (k, q)) + b (0, q)) 0`.  The entry depends on row `p` of `l`, column `q` of `r` and entry
    `q` of the bias row only. -/
theorem dense_relu_apply {φ₁ φ₂ : FTy} (l : FVec Ideal S5000x128 φ₁) (r : FVec Ideal S128x128 φ₂) (b : Vec Ideal S1x128 .f32)
    (h : S1x128.ShapeCasts S1x128) (h' : S1x128.Broadcasts S5000x128) (p : Fin 5000) (q : Fin 128) :
    maximumf (F := Ideal) (addf (matmul (F := Ideal) dot_S5000x128_S128x128_S5000x128_1_0_0_1_n_n none l r (constant (F := Ideal) S5000x128 .f32 0x00000000#32))
        (broadcastTo S5000x128 (shapeCast S1x128 b h) h'))
      (broadcast S5000x128 (Scalar.ofBits (F := Ideal) .f32 0x00000000#32)) (ix2 p q)
      = max ((∑ k : Fin 128, l (ix2 p k) * r (ix2 k q)) + b (ix2 (0 : Fin 1) q)) 0 := by
  show max (matmul (F := Ideal) dot_S5000x128_S128x128_S5000x128_1_0_0_1_n_n none l r (constant (F := Ideal) S5000x128 .f32 0x00000000#32) (ix2 p q)
      + broadcastTo S5000x128 (shapeCast S1x128 b h) h' (ix2 p q)) (Ideal.ofBits .f32 0x00000000#32) = _
  rw [mm_apply, bias_apply, Ideal.ofBits_zero_f32]

end LayerPayload

/-! ## The two layer bodies

Each body is two dense layers with the maximum with zero after each, applied to the entrywise sum of its first two
operands; the changes of float format between them are the identity on extended reals.  The outer layer's left operand
at `(p, k)` is the inner layer's value at `(p, k)`, so the stored entry `(p, q)` is the double sum below. -/

/-- The layer body's stored value at row `p`, column `q` of its block. -/
theorem pay0_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay1 (F := Ideal) x0 x1 x2 x3 x4 x5 (ix2 p q)
      = max ((∑ k : Fin 128,
            max ((∑ k' : Fin 128, (x0 (ix2 p k') + x1 (ix2 p k')) * x2 (ix2 k' k)) + x3 (ix2 (0 : Fin 1) k)) 0 * x4 (ix2 k q))
          + x5 (ix2 (0 : Fin 1) q)) 0 := by
  unfold k0_pay1
  refine (LayerPayload.dense_relu_apply _ _ x5 _ _ p q).trans ?_
  refine congrArg (fun t => max (t + x5 (ix2 (0 : Fin 1) q)) 0) ?_
  refine Finset.sum_congr rfl fun k _ => ?_
  refine congrArg (fun t => t * x4 (ix2 k q)) ?_
  refine (LayerPayload.dense_relu_apply _ _ x3 _ _ p k).trans ?_
  rw [shapeCast_self]
  rfl

theorem pay1_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k1_pay1 (F := Ideal) x0 x1 x2 x3 x4 x5 (ix2 p q)
      = max ((∑ k : Fin 128,
            max ((∑ k' : Fin 128, (x0 (ix2 p k') + x1 (ix2 p k')) * x2 (ix2 k' k)) + x3 (ix2 (0 : Fin 1) k)) 0 * x4 (ix2 k q))
          + x5 (ix2 (0 : Fin 1) q)) 0 := by
  unfold k1_pay1
  refine (LayerPayload.dense_relu_apply _ _ x5 _ _ p q).trans ?_
  refine congrArg (fun t => max (t + x5 (ix2 (0 : Fin 1) q)) 0) ?_
  refine Finset.sum_congr rfl fun k _ => ?_
  refine congrArg (fun t => t * x4 (ix2 k q)) ?_
  refine (LayerPayload.dense_relu_apply _ _ x3 _ _ p k).trans ?_
  rw [shapeCast_self, shapeCast_self]
  rfl

end Cert.KernelIdeal.Gin

end
-- ==== Proof.LayerArray.lean ====
/-
  From blocks to the array, for the two layer regions.

  A layer region runs its body at 20 grid points.  Point `t` stages rows `5000·t … 5000·t + 4999` of the node features
  and of the aggregate, the two whole weight matrices and the two bias rows, and writes back the same rows of the
  output.  Entry `(p, q)` of what point `t` writes back is the layer function of the arrays the region found, at row
  `5000·t + p`: a row of a product depends only on that row of its left factor, and the contracted index runs over all
  128 columns inside the block.  Every row `r` lies in the block of the point with index `r / 5000`, so the written-back
  blocks cover the array, and the output array after the region is the layer function of the arrays it found.
-/
import proofs.«124589_j40802189312202_1_alg».proof.Proof.Gen.KernelIdeal.Frame
import proofs.«124589_j40802189312202_1_alg».proof.Proof.Spec
import proofs.«124589_j40802189312202_1_alg».proof.Proof.LayerPayload
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gin

open Cert.KernelIdeal Cert.KernelIdeal.Gen Idealize.ShloMosaic Idealize.ShloMosaic.TcCoe Idealize.SL.Sem
open Idealize.ShloMosaic.ValueIdx
open Idealize.ShloMosaic.Pipeline (Dat)

/-!
  The pipelined region runs its body once per grid point; at grid point `t` the body reads block `t` (5000 rows) of the
  node features and of their aggregate, the two weight matrices and the two bias rows whole, and writes block `t` of the
  output.  Entry `(p, q)` of the block written is the layer's value at row `t * 5000 + p`, column `q`: it depends only
  on row `t * 5000 + p` of the two row-tiled arrays and on the whole weights and biases.  The 20 blocks tile the
  100000 rows, so after the run the output array is the layer of the arrays the region found on entry, everywhere.
-/

/-- The zero offset of a whole-buffer access, as a function. -/
private theorem hz : (![0, 0] : Fin 2 → Nat) = fun _ => 0 := funext fun a => by fin_cases a <;> rfl

/-! # Region 0: the first message-passing layer -/

/-- The block indices, decided over the 20 grid points: the two row-tiled inputs move with the output along the rows,
    every column index is 0, the weights and bias rows stay at block (0, 0), and the output's row index is at most 19. -/
private theorem idx_facts0 : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every one of the 20 row blocks of the output is some grid point's. -/
private theorem idx_onto0 : ∀ q0 : Fin 20, ∃ t : Fin cfg0.N, win0_6.index t = ![q0.val, 0] :=
  (by decide +kernel : ∀ q0 : Fin 20, ∃ t : Fin grid0.N, win0_6.index t = ![q0.val, 0])

/-- An entry of the output array is in a grid point's block iff each coordinate is in the block's range on its axis. -/
private theorem mem_blk0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16).slice (win0_6.rect t)).set ↔ _
  rw [View.set_slice_whole, Rect.mem_set_unit]
  exact Iff.rfl

/-- The block of the node features at a grid point, read at row `p`, is the array read at row `index * 5000 + p`. -/
private theorem blk0_0 (V : (c : Dev nD) → (b : Ref sig .tc) → Buf (Elt Ideal) ((c : Thread nD τ).loc b)) (c : Dev nD)
    (t : Fin cfg0.N) (p : Fin 5000) (k : Fin 128) (P : Fin 100000)
    (hP : P.val = win0_6.index t (0 : Fin 2) * 5000 + p.val) :
    (iblk0 (F := Ideal) V c 0 t : Vec Ideal S5000x128 .f32) (ix2 p k) = V c main_arg0 (ix2 P k) := by
  obtain ⟨e0, e1, -⟩ := idx_facts0 t
  show V c main_arg0 (((cfg0.win 0).blk t).view.emb (ix2 p k)) = V c main_arg0 (ix2 P k)
  refine congrArg (V c main_arg0) ?_
  funext a; apply Fin.ext
  match a with
  | ⟨0, _⟩ => show win0_0.index t (0 : Fin 2) * 5000 + 1 * p.val = P.val; omega
  | ⟨1, _⟩ => show win0_0.index t (1 : Fin 2) * 128 + 1 * k.val = k.val; omega

/-- The block of the aggregate at a grid point, read at row `p`, is the array read at row `index * 5000 + p`. -/
private theorem blk0_1 (V : (c : Dev nD) → (b : Ref sig .tc) → Buf (Elt Ideal) ((c : Thread nD τ).loc b)) (c : Dev nD)
    (t : Fin cfg0.N) (p : Fin 5000) (k : Fin 128) (P : Fin 100000)
    (hP : P.val = win0_6.index t (0 : Fin 2) * 5000 + p.val) :
    (iblk0 (F := Ideal) V c 1 t : Vec Ideal S5000x128 .f32) (ix2 p k) = V c main_v13 (ix2 P k) := by
  obtain ⟨-, -, e0, e1, -⟩ := idx_facts0 t
  show V c main_v13 (((cfg0.win 1).blk t).view.emb (ix2 p k)) = V c main_v13 (ix2 P k)
  refine congrArg (V c main_v13) ?_
  funext a; apply Fin.ext
  match a with
  | ⟨0, _⟩ => show win0_1.index t (0 : Fin 2) * 5000 + 1 * p.val = P.val; omega
  | ⟨1, _⟩ => show win0_1.index t (1 : Fin 2) * 128 + 1 * k.val = k.val; omega

/-- The first weight matrix is one block: its block at any grid point is the whole array. -/
private theorem blk0_2 (V : (c : Dev nD) → (b : Ref sig .tc) → Buf (Elt Ideal) ((c : Thread nD τ).loc b)) (c : Dev nD)
    (t : Fin cfg0.N) (k' k : Fin 128) :
    (iblk0 (F := Ideal) V c 2 t : Vec Ideal S128x128 .f32) (ix2 k' k) = V c main_arg3 (ix2 k' k) := by
  obtain ⟨-, -, -, -, e0, e1, -⟩ := idx_facts0 t
  show V c main_arg3 (((cfg0.win 2).blk t).view.emb (ix2 k' k)) = V c main_arg3 (ix2 k' k)
  refine congrArg (V c main_arg3) ?_
  funext a; apply Fin.ext
  match a with
  | ⟨0, _⟩ => show win0_2.index t (0 : Fin 2) * 128 + 1 * k'.val = k'.val; omega
  | ⟨1, _⟩ => show win0_2.index t (1 : Fin 2) * 128 + 1 * k.val = k.val; omega

/-- The first bias row is one block: its block at any grid point is the whole row. -/
private theorem blk0_3 (V : (c : Dev nD) → (b : Ref sig .tc) → Buf (Elt Ideal) ((c : Thread nD τ).loc b)) (c : Dev nD)
    (t : Fin cfg0.N) (k : Fin 128) :
    (iblk0 (F := Ideal) V c 3 t : Vec Ideal S1x128 .f32) (ix2 (0 : Fin 1) k) = V c main_v14 (ix2 (0 : Fin 1) k) := by
  obtain ⟨-, -, -, -, -, -, e0, e1, -⟩ := idx_facts0 t
  show V c main_v14 (((cfg0.win 3).blk t).view.emb (ix2 (0 : Fin 1) k)) = V c main_v14 (ix2 (0 : Fin 1) k)
  refine congrArg (V c main_v14) ?_
  funext a; apply Fin.ext
  match a with
  | ⟨0, _⟩ => show win0_3.index t (0 : Fin 2) * 1 + 1 * 0 = 0; omega
  | ⟨1, _⟩ => show win0_3.index t (1 : Fin 2) * 128 + 1 * k.val = k.val; omega

/-- The second weight matrix is one block: its block at any grid point is the whole array. -/
private theorem blk0_4 (V : (c : Dev nD) → (b : Ref sig .tc) → Buf (Elt Ideal) ((c : Thread nD τ).loc b)) (c : Dev nD)
    (t : Fin cfg0.N) (k' k : Fin 128) :
    (iblk0 (F := Ideal) V c 4 t : Vec Ideal S128x128 .f32) (ix2 k' k) = V c main_arg5 (ix2 k' k) := by
  obtain ⟨-, -, -, -, -, -, -, -, e0, e1, -⟩ := idx_facts0 t
  show V c main_arg5 (((cfg0.win 4).blk t).view.emb (ix2 k' k)) = V c main_arg5 (ix2 k' k)
  refine congrArg (V c main_arg5) ?_
  funext a; apply Fin.ext
  match a with
  | ⟨0, _⟩ => show win0_4.index t (0 : Fin 2) * 128 + 1 * k'.val = k'.val; omega
  | ⟨1, _⟩ => show win0_4.index t (1 : Fin 2) * 128 + 1 * k.val = k.val; omega

/-- The second bias row is one block: its block at any grid point is the whole row. -/
private theorem blk0_5 (V : (c : Dev nD) → (b : Ref sig .tc) → Buf (Elt Ideal) ((c : Thread nD τ).loc b)) (c : Dev nD)
    (t : Fin cfg0.N) (k : Fin 128) :
    (iblk0 (F := Ideal) V c 5 t : Vec Ideal S1x128 .f32) (ix2 (0 : Fin 1) k) = V c main_v15 (ix2 (0 : Fin 1) k) := by
  obtain ⟨-, -, -, -, -, -, -, -, -, -, e0, e1, -⟩ := idx_facts0 t
  show V c main_v15 (((cfg0.win 5).blk t).view.emb (ix2 (0 : Fin 1) k)) = V c main_v15 (ix2 (0 : Fin 1) k)
  refine congrArg (V c main_v15) ?_
  funext a; apply Fin.ext
  match a with
  | ⟨0, _⟩ => show win0_5.index t (0 : Fin 2) * 1 + 1 * 0 = 0; omega
  | ⟨1, _⟩ => show win0_5.index t (1 : Fin 2) * 128 + 1 * k.val = k.val; omega

/-- What a grid point writes back is its block of one layer of the arrays the region finds. -/
private theorem flushed0_eq (V : (c : Dev nD) → (b : Ref sig .tc) → Buf (Elt Ideal) ((c : Thread nD τ).loc b)) (c : Dev nD)
    (b1 b2 : Cert.Gin.Arr1 128)
    (hb1 : ∀ k : Fin 128, V c main_v14 (ix2 (0 : Fin 1) k) = b1 (ix1 k))
    (hb2 : ∀ k : Fin 128, V c main_v15 (ix2 (0 : Fin 1) k) = b2 (ix1 k)) (t : Fin cfg0.N) :
    (dat0 (F := Ideal) V c).flushed 6 t = ((cfg0.win 6).blk t).view.read (Elt Ideal)
      (Cert.Gin.layer (V c main_arg0) (V c main_v13) (V c main_arg3) b1 (V c main_arg5) b2) := by
  show (cfg0.win 6).cut (grid0.coords t) ((dat0 (F := Ideal) V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, -, -, e0, e1⟩ := idx_facts0 t
  -- the row of the array this entry of the block sits in
  have hlt : win0_6.index t (0 : Fin 2) * 5000 + p.val < 100000 := by have := p.isLt; omega
  obtain ⟨P, hP⟩ : ∃ P : Fin 100000, P.val = win0_6.index t (0 : Fin 2) * 5000 + p.val := ⟨⟨_, hlt⟩, rfl⟩
  have hemb : ((cfg0.win 6).blk t).view.emb (ix2 p q) = ix2 P q := by
    funext a; apply Fin.ext
    match a with
    | ⟨0, _⟩ => show win0_6.index t (0 : Fin 2) * 5000 + 1 * p.val = P.val; omega
    | ⟨1, _⟩ => show win0_6.index t (1 : Fin 2) * 128 + 1 * q.val = q.val; omega
  show k0_pay1 (F := Ideal) (iblk0 V c 0 t) (iblk0 V c 1 t) (iblk0 V c 2 t) (iblk0 V c 3 t) (iblk0 V c 4 t) (iblk0 V c 5 t) (ix2 p q)
    = Cert.Gin.layer (V c main_arg0) (V c main_v13) (V c main_arg3) b1 (V c main_arg5) b2 (((cfg0.win 6).blk t).view.emb (ix2 p q))
  rw [hemb, Cert.Gin.layer_apply]
  refine (pay0_apply _ _ _ _ _ _ p q).trans ?_
  rw [blk0_5 V c t q, hb2 q]
  refine congrArg (fun x => max (x + b2 (ix1 q)) 0) ?_
  refine Finset.sum_congr rfl fun k _ => ?_
  rw [blk0_4 V c t k q, blk0_3 V c t k, hb1 k]
  refine congrArg (fun x => max (x + b1 (ix1 k)) 0 * V c main_arg5 (ix2 k q)) ?_
  refine Finset.sum_congr rfl fun k' _ => ?_
  rw [blk0_0 V c t p k' P hP, blk0_1 V c t p k' P hP, blk0_2 V c t k' k]

/-- Every entry of the output array lies in the block of the grid point whose index is its row divided by 5000. -/
private theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After region 0 its output array is one layer of the arrays the region finds. -/
theorem arr0 (V : (c : Dev nD) → (b : Ref sig .tc) → Buf (Elt Ideal) ((c : Thread nD τ).loc b)) (c : Dev nD)
    (b1 b2 : Cert.Gin.Arr1 128)
    (hb1 : ∀ k : Fin 128, V c main_v14 (ix2 (0 : Fin 1) k) = b1 (ix1 k))
    (hb2 : ∀ k : Fin 128, V c main_v15 (ix2 (0 : Fin 1) k) = b2 (ix1 k)) :
    (dat0 (F := Ideal) V c).arrAt 6 cfg0.N
      = Cert.Gin.layer (V c main_arg0) (V c main_v13) (V c main_arg3) b1 (V c main_arg5) b2 :=
  (dat0 (F := Ideal) V c).arrAt_eq_of_cover 6
    (Cert.Gin.layer (V c main_arg0) (V c main_v13) (V c main_arg3) b1 (V c main_arg5) b2)
    (fun t _ => flushed0_eq V c b1 b2 hb1 hb2 t) cover0

/-! # Region 1: the second message-passing layer -/

/-- The block indices, decided over the 20 grid points: the two row-tiled inputs move with the output along the rows,
    every column index is 0, the weights and bias rows stay at block (0, 0), and the output's row index is at most 19. -/
private theorem idx_facts1 : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 19 ∧ win1_6.index t (1 : Fin 2) = 0 :=
  (by decide +kernel : ∀ t : Fin grid1.N, _)

/-- Every one of the 20 row blocks of the output is some grid point's. -/
private theorem idx_onto1 : ∀ q0 : Fin 20, ∃ t : Fin cfg1.N, win1_6.index t = ![q0.val, 0] :=
  (by decide +kernel : ∀ q0 : Fin 20, ∃ t : Fin grid1.N, win1_6.index t = ![q0.val, 0])

/-- An entry of the output array is in a grid point's block iff each coordinate is in the block's range on its axis. -/
private theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v29).slice (win1_6.rect t)).set ↔ _
  rw [View.set_slice_whole, Rect.mem_set_unit]
  exact Iff.rfl

/-- The block of the node features at a grid point, read at row `p`, is the array read at row `index * 5000 + p`. -/
private theorem blk1_0 (V : (c : Dev nD) → (b : Ref sig .tc) → Buf (Elt Ideal) ((c : Thread nD τ).loc b)) (c : Dev nD)
    (t : Fin cfg1.N) (p : Fin 5000) (k : Fin 128) (P : Fin 100000)
    (hP : P.val = win1_6.index t (0 : Fin 2) * 5000 + p.val) :
    (iblk1 (F := Ideal) V c 0 t : Vec Ideal S5000x128 .f32) (ix2 p k) = V c main_v16 (ix2 P k) := by
  obtain ⟨e0, e1, -⟩ := idx_facts1 t
  show V c main_v16 (((cfg1.win 0).blk t).view.emb (ix2 p k)) = V c main_v16 (ix2 P k)
  refine congrArg (V c main_v16) ?_
  funext a; apply Fin.ext
  match a with
  | ⟨0, _⟩ => show win1_0.index t (0 : Fin 2) * 5000 + 1 * p.val = P.val; omega
  | ⟨1, _⟩ => show win1_0.index t (1 : Fin 2) * 128 + 1 * k.val = k.val; omega

/-- The block of the aggregate at a grid point, read at row `p`, is the array read at row `index * 5000 + p`. -/
private theorem blk1_1 (V : (c : Dev nD) → (b : Ref sig .tc) → Buf (Elt Ideal) ((c : Thread nD τ).loc b)) (c : Dev nD)
    (t : Fin cfg1.N) (p : Fin 5000) (k : Fin 128) (P : Fin 100000)
    (hP : P.val = win1_6.index t (0 : Fin 2) * 5000 + p.val) :
    (iblk1 (F := Ideal) V c 1 t : Vec Ideal S5000x128 .f32) (ix2 p k) = V c main_v26 (ix2 P k) := by
  obtain ⟨-, -, e0, e1, -⟩ := idx_facts1 t
  show V c main_v26 (((cfg1.win 1).blk t).view.emb (ix2 p k)) = V c main_v26 (ix2 P k)
  refine congrArg (V c main_v26) ?_
  funext a; apply Fin.ext
  match a with
  | ⟨0, _⟩ => show win1_1.index t (0 : Fin 2) * 5000 + 1 * p.val = P.val; omega
  | ⟨1, _⟩ => show win1_1.index t (1 : Fin 2) * 128 + 1 * k.val = k.val; omega

/-- The first weight matrix is one block: its block at any grid point is the whole array. -/
private theorem blk1_2 (V : (c : Dev nD) → (b : Ref sig .tc) → Buf (Elt Ideal) ((c : Thread nD τ).loc b)) (c : Dev nD)
    (t : Fin cfg1.N) (k' k : Fin 128) :
    (iblk1 (F := Ideal) V c 2 t : Vec Ideal S128x128 .f32) (ix2 k' k) = V c main_arg7 (ix2 k' k) := by
  obtain ⟨-, -, -, -, e0, e1, -⟩ := idx_facts1 t
  show V c main_arg7 (((cfg1.win 2).blk t).view.emb (ix2 k' k)) = V c main_arg7 (ix2 k' k)
  refine congrArg (V c main_arg7) ?_
  funext a; apply Fin.ext
  match a with
  | ⟨0, _⟩ => show win1_2.index t (0 : Fin 2) * 128 + 1 * k'.val = k'.val; omega
  | ⟨1, _⟩ => show win1_2.index t (1 : Fin 2) * 128 + 1 * k.val = k.val; omega

/-- The first bias row is one block: its block at any grid point is the whole row. -/
private theorem blk1_3 (V : (c : Dev nD) → (b : Ref sig .tc) → Buf (Elt Ideal) ((c : Thread nD τ).loc b)) (c : Dev nD)
    (t : Fin cfg1.N) (k : Fin 128) :
    (iblk1 (F := Ideal) V c 3 t : Vec Ideal S1x128 .f32) (ix2 (0 : Fin 1) k) = V c main_v27 (ix2 (0 : Fin 1) k) := by
  obtain ⟨-, -, -, -, -, -, e0, e1, -⟩ := idx_facts1 t
  show V c main_v27 (((cfg1.win 3).blk t).view.emb (ix2 (0 : Fin 1) k)) = V c main_v27 (ix2 (0 : Fin 1) k)
  refine congrArg (V c main_v27) ?_
  funext a; apply Fin.ext
  match a with
  | ⟨0, _⟩ => show win1_3.index t (0 : Fin 2) * 1 + 1 * 0 = 0; omega
  | ⟨1, _⟩ => show win1_3.index t (1 : Fin 2) * 128 + 1 * k.val = k.val; omega

/-- The second weight matrix is one block: its block at any grid point is the whole array. -/
private theorem blk1_4 (V : (c : Dev nD) → (b : Ref sig .tc) → Buf (Elt Ideal) ((c : Thread nD τ).loc b)) (c : Dev nD)
    (t : Fin cfg1.N) (k' k : Fin 128) :
    (iblk1 (F := Ideal) V c 4 t : Vec Ideal S128x128 .f32) (ix2 k' k) = V c main_arg9 (ix2 k' k) := by
  obtain ⟨-, -, -, -, -, -, -, -, e0, e1, -⟩ := idx_facts1 t
  show V c main_arg9 (((cfg1.win 4).blk t).view.emb (ix2 k' k)) = V c main_arg9 (ix2 k' k)
  refine congrArg (V c main_arg9) ?_
  funext a; apply Fin.ext
  match a with
  | ⟨0, _⟩ => show win1_4.index t (0 : Fin 2) * 128 + 1 * k'.val = k'.val; omega
  | ⟨1, _⟩ => show win1_4.index t (1 : Fin 2) * 128 + 1 * k.val = k.val; omega

/-- The second bias row is one block: its block at any grid point is the whole row. -/
private theorem blk1_5 (V : (c : Dev nD) → (b : Ref sig .tc) → Buf (Elt Ideal) ((c : Thread nD τ).loc b)) (c : Dev nD)
    (t : Fin cfg1.N) (k : Fin 128) :
    (iblk1 (F := Ideal) V c 5 t : Vec Ideal S1x128 .f32) (ix2 (0 : Fin 1) k) = V c main_v28 (ix2 (0 : Fin 1) k) := by
  obtain ⟨-, -, -, -, -, -, -, -, -, -, e0, e1, -⟩ := idx_facts1 t
  show V c main_v28 (((cfg1.win 5).blk t).view.emb (ix2 (0 : Fin 1) k)) = V c main_v28 (ix2 (0 : Fin 1) k)
  refine congrArg (V c main_v28) ?_
  funext a; apply Fin.ext
  match a with
  | ⟨0, _⟩ => show win1_5.index t (0 : Fin 2) * 1 + 1 * 0 = 0; omega
  | ⟨1, _⟩ => show win1_5.index t (1 : Fin 2) * 128 + 1 * k.val = k.val; omega

/-- What a grid point writes back is its block of one layer of the arrays the region finds. -/
private theorem flushed1_eq (V : (c : Dev nD) → (b : Ref sig .tc) → Buf (Elt Ideal) ((c : Thread nD τ).loc b)) (c : Dev nD)
    (b1 b2 : Cert.Gin.Arr1 128)
    (hb1 : ∀ k : Fin 128, V c main_v27 (ix2 (0 : Fin 1) k) = b1 (ix1 k))
    (hb2 : ∀ k : Fin 128, V c main_v28 (ix2 (0 : Fin 1) k) = b2 (ix1 k)) (t : Fin cfg1.N) :
    (dat1 (F := Ideal) V c).flushed 6 t = ((cfg1.win 6).blk t).view.read (Elt Ideal)
      (Cert.Gin.layer (V c main_v16) (V c main_v26) (V c main_arg7) b1 (V c main_arg9) b2) := by
  show (cfg1.win 6).cut (grid1.coords t) ((dat1 (F := Ideal) V c).after 6 t) = _
  rw [after1_6]
  unfold out1_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, -, -, e0, e1⟩ := idx_facts1 t
  -- the row of the array this entry of the block sits in
  have hlt : win1_6.index t (0 : Fin 2) * 5000 + p.val < 100000 := by have := p.isLt; omega
  obtain ⟨P, hP⟩ : ∃ P : Fin 100000, P.val = win1_6.index t (0 : Fin 2) * 5000 + p.val := ⟨⟨_, hlt⟩, rfl⟩
  have hemb : ((cfg1.win 6).blk t).view.emb (ix2 p q) = ix2 P q := by
    funext a; apply Fin.ext
    match a with
    | ⟨0, _⟩ => show win1_6.index t (0 : Fin 2) * 5000 + 1 * p.val = P.val; omega
    | ⟨1, _⟩ => show win1_6.index t (1 : Fin 2) * 128 + 1 * q.val = q.val; omega
  show k1_pay1 (F := Ideal) (iblk1 V c 0 t) (iblk1 V c 1 t) (iblk1 V c 2 t) (iblk1 V c 3 t) (iblk1 V c 4 t) (iblk1 V c 5 t) (ix2 p q)
    = Cert.Gin.layer (V c main_v16) (V c main_v26) (V c main_arg7) b1 (V c main_arg9) b2 (((cfg1.win 6).blk t).view.emb (ix2 p q))
  rw [hemb, Cert.Gin.layer_apply]
  refine (pay1_apply _ _ _ _ _ _ p q).trans ?_
  rw [blk1_5 V c t q, hb2 q]
  refine congrArg (fun x => max (x + b2 (ix1 q)) 0) ?_
  refine Finset.sum_congr rfl fun k _ => ?_
  rw [blk1_4 V c t k q, blk1_3 V c t k, hb1 k]
  refine congrArg (fun x => max (x + b1 (ix1 k)) 0 * V c main_arg9 (ix2 k q)) ?_
  refine Finset.sum_congr rfl fun k' _ => ?_
  rw [blk1_0 V c t p k' P hP, blk1_1 V c t p k' P hP, blk1_2 V c t k' k]

/-- Every entry of the output array lies in the block of the grid point whose index is its row divided by 5000. -/
private theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After region 1 its output array is one layer of the arrays the region finds. -/
theorem arr1 (V : (c : Dev nD) → (b : Ref sig .tc) → Buf (Elt Ideal) ((c : Thread nD τ).loc b)) (c : Dev nD)
    (b1 b2 : Cert.Gin.Arr1 128)
    (hb1 : ∀ k : Fin 128, V c main_v27 (ix2 (0 : Fin 1) k) = b1 (ix1 k))
    (hb2 : ∀ k : Fin 128, V c main_v28 (ix2 (0 : Fin 1) k) = b2 (ix1 k)) :
    (dat1 (F := Ideal) V c).arrAt 6 cfg1.N
      = Cert.Gin.layer (V c main_v16) (V c main_v26) (V c main_arg7) b1 (V c main_arg9) b2 :=
  (dat1 (F := Ideal) V c).arrAt_eq_of_cover 6
    (Cert.Gin.layer (V c main_v16) (V c main_v26) (V c main_arg7) b1 (V c main_arg9) b2)
    (fun t _ => flushed1_eq V c b1 b2 hb1 hb2 t) cover1

end Cert.KernelIdeal.Gin

end
-- ==== Proof.HeadArray.lean ====
/-
  The head region: its body's stored value at an entry, and its output array.

  The region has one grid point, and every window's block is its whole array.  The body multiplies the pooled
  features by a weight matrix, adds a bias and takes the maximum with zero, twice, then multiplies by the 128×10
  classifier matrix and adds its bias.  Each product starts from a zero accumulator, so its entry `(p, q)` is the sum
  over the 128 contracted columns of the products of the entries; a bias is a one-row array repeated down the rows;
  narrowing to a shorter float format is the identity on the extended reals.  The one written-back block covers the
  output array, which is therefore the head function of the arrays the region found.
-/
import proofs.«124589_j40802189312202_1_alg».proof.Proof.Gen.KernelIdeal.Frame
import proofs.«124589_j40802189312202_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gin

open Cert.KernelIdeal Cert.KernelIdeal.Gen Idealize.ShloMosaic Idealize.ShloMosaic.TcCoe Idealize.SL.Sem
open Idealize.ShloMosaic.ValueIdx
open Idealize.ShloMosaic.Pipeline (Dat)

/-! ### The 512x128 by 128x128 product: which operand entries output entry `(p, q)` and contraction coordinate `k` read -/

/-- The left operand's row is the output's row. -/
private theorem mm2_lhs0 (i : S512x128.Idx) (c : dot_S512x128_S128x128_S512x128_1_0_0_1_n_n.contr.Idx) : (dot_S512x128_S128x128_S512x128_1_0_0_1_n_n.lhsIdx i c 0).val = (i 0).val := by
  unfold DotDims.lhsIdx
  rw [dif_neg (show ¬(0 : Fin S512x128.rank) ∈ dot_S512x128_S128x128_S512x128_1_0_0_1_n_n.lhsBatch by decide),
    dif_pos (show (0 : Fin S512x128.rank) ∈ dot_S512x128_S128x128_S512x128_1_0_0_1_n_n.lhsNonContracting by decide)]
  rfl
/-- The left operand's column is the contraction coordinate. -/
private theorem mm2_lhs1 (i : S512x128.Idx) (c : dot_S512x128_S128x128_S512x128_1_0_0_1_n_n.contr.Idx) : (dot_S512x128_S128x128_S512x128_1_0_0_1_n_n.lhsIdx i c 1).val = (c ⟨0, by decide⟩).val :=
  dot_S512x128_S128x128_S512x128_1_0_0_1_n_n.lhsIdx_val_of_single rfl i c
/-- The right operand's row is the contraction coordinate. -/
private theorem mm2_rhs0 (i : S512x128.Idx) (c : dot_S512x128_S128x128_S512x128_1_0_0_1_n_n.contr.Idx) : (dot_S512x128_S128x128_S512x128_1_0_0_1_n_n.rhsIdx i c 0).val = (c ⟨0, by decide⟩).val :=
  dot_S512x128_S128x128_S512x128_1_0_0_1_n_n.rhsIdx_val_of_single rfl i c
/-- The right operand's column is the output's column. -/
private theorem mm2_rhs1 (i : S512x128.Idx) (c : dot_S512x128_S128x128_S512x128_1_0_0_1_n_n.contr.Idx) : (dot_S512x128_S128x128_S512x128_1_0_0_1_n_n.rhsIdx i c 1).val = (i 1).val := by
  unfold DotDims.rhsIdx
  rw [dif_neg (show ¬(1 : Fin S128x128.rank) ∈ dot_S512x128_S128x128_S512x128_1_0_0_1_n_n.rhsBatch by decide),
    dif_pos (show (1 : Fin S128x128.rank) ∈ dot_S512x128_S128x128_S512x128_1_0_0_1_n_n.rhsNonContracting by decide)]
  rfl

/-- The product into the zero accumulator, at row `p`, column `q`: the sum over the one contracted coordinate of the
    products of the left operand's row `p` and the right operand's column `q`. -/
private theorem mm2_apply (l : FVec Ideal S512x128 .bf16) (r : FVec Ideal S128x128 .bf16) (p : Fin 512) (q : Fin 128) :
    FloatOps.matmul (F := Ideal) dot_S512x128_S128x128_S512x128_1_0_0_1_n_n none l r (constant (F := Ideal) S512x128 .f32 0x00000000#32) (ix2 p q)
      = ∑ k : Fin 128, l (ix2 p k) * r (ix2 k q) := by
  rw [Ideal.matmul_constant_zero_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q) ((ValueIdx.contrEquiv1 dot_S512x128_S128x128_S512x128_1_0_0_1_n_n 128 rfl rfl).symm k) = ix2 p k :=
    funext fun a => Fin.ext (by
      match a with
      | ⟨0, _⟩ => exact mm2_lhs0 _ _
      | ⟨1, _⟩ => exact (mm2_lhs1 _ _).trans hk)
  have er : dot_S512x128_S128x128_S512x128_1_0_0_1_n_n.rhsIdx (ix2 p q) ((ValueIdx.contrEquiv1 dot_S512x128_S128x128_S512x128_1_0_0_1_n_n 128 rfl rfl).symm k) = ix2 k q :=
    funext fun a => Fin.ext (by
      match a with
      | ⟨0, _⟩ => exact (mm2_rhs0 _ _).trans hk
      | ⟨1, _⟩ => exact mm2_rhs1 _ _)
  rw [el, er]

/-! ### The 512x128 by 128x10 product: which operand entries output entry `(p, q)` and contraction coordinate `k` read -/

/-- The left operand's row is the output's row. -/
private theorem mm3_lhs0 (i : S512x10.Idx) (c : dot_S512x128_S128x10_S512x10_1_0_0_1_n_n.contr.Idx) : (dot_S512x128_S128x10_S512x10_1_0_0_1_n_n.lhsIdx i c 0).val = (i 0).val := by
  unfold DotDims.lhsIdx
  rw [dif_neg (show ¬(0 : Fin S512x128.rank) ∈ dot_S512x128_S128x10_S512x10_1_0_0_1_n_n.lhsBatch by decide),
    dif_pos (show (0 : Fin S512x128.rank) ∈ dot_S512x128_S128x10_S512x10_1_0_0_1_n_n.lhsNonContracting by decide)]
  rfl
/-- The left operand's column is the contraction coordinate. -/
private theorem mm3_lhs1 (i : S512x10.Idx) (c : dot_S512x128_S128x10_S512x10_1_0_0_1_n_n.contr.Idx) : (dot_S512x128_S128x10_S512x10_1_0_0_1_n_n.lhsIdx i c 1).val = (c ⟨0, by decide⟩).val :=
  dot_S512x128_S128x10_S512x10_1_0_0_1_n_n.lhsIdx_val_of_single rfl i c
/-- The right operand's row is the contraction coordinate. -/
private theorem mm3_rhs0 (i : S512x10.Idx) (c : dot_S512x128_S128x10_S512x10_1_0_0_1_n_n.contr.Idx) : (dot_S512x128_S128x10_S512x10_1_0_0_1_n_n.rhsIdx i c 0).val = (c ⟨0, by decide⟩).val :=
  dot_S512x128_S128x10_S512x10_1_0_0_1_n_n.rhsIdx_val_of_single rfl i c
/-- The right operand's column is the output's column. -/
private theorem mm3_rhs1 (i : S512x10.Idx) (c : dot_S512x128_S128x10_S512x10_1_0_0_1_n_n.contr.Idx) : (dot_S512x128_S128x10_S512x10_1_0_0_1_n_n.rhsIdx i c 1).val = (i 1).val := by
  unfold DotDims.rhsIdx
  rw [dif_neg (show ¬(1 : Fin S128x10.rank) ∈ dot_S512x128_S128x10_S512x10_1_0_0_1_n_n.rhsBatch by decide),
    dif_pos (show (1 : Fin S128x10.rank) ∈ dot_S512x128_S128x10_S512x10_1_0_0_1_n_n.rhsNonContracting by decide)]
  rfl

/-- The product into the zero accumulator, at row `p`, column `q`: the sum over the one contracted coordinate of the
    products of the left operand's row `p` and the right operand's column `q`. -/
private theorem mm3_apply (l : FVec Ideal S512x128 .bf16) (r : FVec Ideal S128x10 .bf16) (p : Fin 512) (q : Fin 10) :
    FloatOps.matmul (F := Ideal) dot_S512x128_S128x10_S512x10_1_0_0_1_n_n none l r (constant (F := Ideal) S512x10 .f32 0x00000000#32) (ix2 p q)
      = ∑ k : Fin 128, l (ix2 p k) * r (ix2 k q) := by
  rw [Ideal.matmul_constant_zero_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx (ix2 p q) ((ValueIdx.contrEquiv1 dot_S512x128_S128x10_S512x10_1_0_0_1_n_n 128 rfl rfl).symm k) = ix2 p k :=
    funext fun a => Fin.ext (by
      match a with
      | ⟨0, _⟩ => exact mm3_lhs0 _ _
      | ⟨1, _⟩ => exact (mm3_lhs1 _ _).trans hk)
  have er : dot_S512x128_S128x10_S512x10_1_0_0_1_n_n.rhsIdx (ix2 p q) ((ValueIdx.contrEquiv1 dot_S512x128_S128x10_S512x10_1_0_0_1_n_n 128 rfl rfl).symm k) = ix2 k q :=
    funext fun a => Fin.ext (by
      match a with
      | ⟨0, _⟩ => exact (mm3_rhs0 _ _).trans hk
      | ⟨1, _⟩ => exact mm3_rhs1 _ _)
  rw [el, er]

/-! ### The bias rows: a one-row array broadcast down the 512 rows reads its one row -/

private theorem bias128_apply (x : FVec Ideal S1x128 .f32) (h : S1x128.ShapeCasts S1x128) (h' : S1x128.Broadcasts S512x128)
    (p : Fin 512) (q : Fin 128) :
    broadcastTo S512x128 (shapeCast S1x128 x h) h' (ix2 p q) = x (ix2 (0 : Fin 1) q) := by
  rw [shapeCast_self]
  exact broadcastTo_apply x h' (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

private theorem bias10_apply (x : FVec Ideal S1x10 .f32) (h : S1x10.ShapeCasts S1x10) (h' : S1x10.Broadcasts S512x10)
    (p : Fin 512) (q : Fin 10) :
    broadcastTo S512x10 (shapeCast S1x10 x h) h' (ix2 p q) = x (ix2 (0 : Fin 1) q) := by
  rw [shapeCast_self]
  exact broadcastTo_apply x h' (ix2 p q) (ix2 (0 : Fin 1) q) (fun a => match a with
    | ⟨0, _⟩ => by show (0 : Nat) = if (1 : Nat) = 1 then 0 else p.val; rw [if_pos rfl]
    | ⟨1, _⟩ => by show q.val = if (10 : Nat) = 1 then 0 else q.val; rw [if_neg (by decide)])

/-! ### One hidden layer and the last layer of the head, at an entry -/

/-- A hidden layer: the product with the weights into the zero accumulator, plus the bias row, maximum with the zero
    splat — at row `p`, column `q`. The narrowing conversions of the operands are the identity on extended reals. -/
private theorem hidden_apply (z : FVec Ideal S512x128 .f32) (w : FVec Ideal S128x128 .f32) (b : FVec Ideal S1x128 .f32)
    (hlt : FTy.bits .bf16 < FTy.bits .f32) (h : S1x128.ShapeCasts S1x128) (h' : S1x128.Broadcasts S512x128)
    (p : Fin 512) (q : Fin 128) :
    maximumf (addf (matmul (F := Ideal) dot_S512x128_S128x128_S512x128_1_0_0_1_n_n none (truncf .bf16 z hlt) (truncf .bf16 w hlt)
          (constant (F := Ideal) S512x128 .f32 0x00000000#32)) (broadcastTo S512x128 (shapeCast S1x128 b h) h'))
        (broadcast S512x128 (Scalar.ofBits (F := Ideal) .f32 0x00000000#32)) (ix2 p q)
      = max ((∑ k : Fin 128, z (ix2 p k) * w (ix2 k q)) + b (ix2 (0 : Fin 1) q)) 0 := by
  show max (FloatOps.matmul (F := Ideal) dot_S512x128_S128x128_S512x128_1_0_0_1_n_n none (truncf .bf16 z hlt) (truncf .bf16 w hlt)
          (constant (F := Ideal) S512x128 .f32 0x00000000#32) (ix2 p q)
        + broadcastTo S512x128 (shapeCast S1x128 b h) h' (ix2 p q)) (Ideal.ofBits .f32 0x00000000#32) = _
  rw [mm2_apply, bias128_apply, Ideal.ofBits_zero_f32]
  rfl

/-- The last layer: the product with the weights into the zero accumulator, plus the bias row — at row `p`, column `q`. -/
private theorem last_apply (z : FVec Ideal S512x128 .f32) (w : FVec Ideal S128x10 .f32) (b : FVec Ideal S1x10 .f32)
    (hlt : FTy.bits .bf16 < FTy.bits .f32) (h : S1x10.ShapeCasts S1x10) (h' : S1x10.Broadcasts S512x10)
    (p : Fin 512) (q : Fin 10) :
    addf (matmul (F := Ideal) dot_S512x128_S128x10_S512x10_1_0_0_1_n_n none (truncf .bf16 z hlt) (truncf .bf16 w hlt)
          (constant (F := Ideal) S512x10 .f32 0x00000000#32)) (broadcastTo S512x10 (shapeCast S1x10 b h) h') (ix2 p q)
      = (∑ k : Fin 128, z (ix2 p k) * w (ix2 k q)) + b (ix2 (0 : Fin 1) q) := by
  show FloatOps.matmul (F := Ideal) dot_S512x128_S128x10_S512x10_1_0_0_1_n_n none (truncf .bf16 z hlt) (truncf .bf16 w hlt)
          (constant (F := Ideal) S512x10 .f32 0x00000000#32) (ix2 p q)
        + broadcastTo S512x10 (shapeCast S1x10 b h) h' (ix2 p q) = _
  rw [mm3_apply, bias10_apply]
  rfl

/-- The head body's stored value at row `p`, column `q`. -/
theorem pay2_apply (x0 : Vec Ideal S512x128 .f32) (x1 : Vec Ideal S128x128 .f32) (x2 : Vec Ideal S1x128 .f32)
    (x3 : Vec Ideal S128x128 .f32) (x4 : Vec Ideal S1x128 .f32) (x5 : Vec Ideal S128x10 .f32) (x6 : Vec Ideal S1x10 .f32)
    (p : Fin 512) (q : Fin 10) :
    k2_pay1 (F := Ideal) x0 x1 x2 x3 x4 x5 x6 (ix2 p q)
      = (∑ k : Fin 128,
          max ((∑ k' : Fin 128,
              max ((∑ k'' : Fin 128, x0 (ix2 p k'') * x1 (ix2 k'' k')) + x2 (ix2 (0 : Fin 1) k')) 0 * x3 (ix2 k' k))
            + x4 (ix2 (0 : Fin 1) k)) 0 * x5 (ix2 k q))
        + x6 (ix2 (0 : Fin 1) q) := by
  unfold k2_pay1
  refine (last_apply _ x5 x6 _ _ _ p q).trans ?_
  refine congrArg (· + x6 (ix2 (0 : Fin 1) q)) (Finset.sum_congr rfl fun k _ => ?_)
  refine congrArg (· * x5 (ix2 k q)) ?_
  refine (hidden_apply _ x3 x4 _ _ _ p k).trans ?_
  refine congrArg (fun s => max (s + x4 (ix2 (0 : Fin 1) k)) 0) (Finset.sum_congr rfl fun k' _ => ?_)
  refine congrArg (· * x3 (ix2 k' k)) ?_
  refine (hidden_apply _ x1 x2 _ _ _ p k').trans ?_
  rw [shapeCast_self]

/-! ## The one-point region: what its single grid point writes back, and the array after it -/

private theorem hz2 : (![0, 0] : Fin 2 → Nat) = fun _ => 0 := funext fun a => by fin_cases a <;> rfl

/-- Every window's block index is `(0, 0)` at the one grid point: each block is its whole array. -/
private theorem idx_facts2 : ∀ t : Fin cfg2.N,
    (win2_0.index t (0 : Fin 2) = 0 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

section Blocks
variable (V : (c : Dev nD) → (b : Ref sig .tc) → Buf (Elt Ideal) ((c : Thread nD τ).loc b)) (c : Dev nD) (t : Fin cfg2.N)

/-! A block's coordinate on an axis is its block index times the block's extent plus the coordinate inside the block;
    with block index `0` every input block read at an entry is its array read at the same entry. -/

/-- The pooled features' block is the array. -/
private theorem iblk2_0_apply (p : Fin 512) (k : Fin 128) :
    (iblk2 V c 0 t : Vec Ideal S512x128 .f32) (ix2 p k) = V c main_v32 (ix2 p k) := by
  obtain ⟨⟨e0, e1⟩, -⟩ := idx_facts2 t
  unfold iblk2
  rw [View.read_apply]
  show V c main_v32 _ = V c main_v32 _
  congr 1
  funext a
  apply Fin.ext
  match a with
  | ⟨0, _⟩ => show win2_0.index t (0 : Fin 2) * 512 + 1 * p.val = p.val; rw [e0]; omega
  | ⟨1, _⟩ => show win2_0.index t (1 : Fin 2) * 128 + 1 * k.val = k.val; rw [e1]; omega

/-- The first weights' block is the array. -/
private theorem iblk2_1_apply (r : Fin 128) (k : Fin 128) :
    (iblk2 V c 1 t : Vec Ideal S128x128 .f32) (ix2 r k) = V c main_arg11 (ix2 r k) := by
  obtain ⟨-, ⟨e0, e1⟩, -⟩ := idx_facts2 t
  unfold iblk2
  rw [View.read_apply]
  show V c main_arg11 _ = V c main_arg11 _
  congr 1
  funext a
  apply Fin.ext
  match a with
  | ⟨0, _⟩ => show win2_1.index t (0 : Fin 2) * 128 + 1 * r.val = r.val; rw [e0]; omega
  | ⟨1, _⟩ => show win2_1.index t (1 : Fin 2) * 128 + 1 * k.val = k.val; rw [e1]; omega

/-- The first bias row's block is the array. -/
private theorem iblk2_2_apply (k : Fin 128) :
    (iblk2 V c 2 t : Vec Ideal S1x128 .f32) (ix2 (0 : Fin 1) k) = V c main_v33 (ix2 (0 : Fin 1) k) := by
  obtain ⟨-, -, ⟨e0, e1⟩, -⟩ := idx_facts2 t
  unfold iblk2
  rw [View.read_apply]
  show V c main_v33 _ = V c main_v33 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

/-- The second weights' block is the array. -/
private theorem iblk2_3_apply (r : Fin 128) (k : Fin 128) :
    (iblk2 V c 3 t : Vec Ideal S128x128 .f32) (ix2 r k) = V c main_arg13 (ix2 r k) := by
  obtain ⟨-, -, -, ⟨e0, e1⟩, -⟩ := idx_facts2 t
  unfold iblk2
  rw [View.read_apply]
  show V c main_arg13 _ = V c main_arg13 _
  congr 1
  funext a
  apply Fin.ext
  match a with
  | ⟨0, _⟩ => show win2_3.index t (0 : Fin 2) * 128 + 1 * r.val = r.val; rw [e0]; omega
  | ⟨1, _⟩ => show win2_3.index t (1 : Fin 2) * 128 + 1 * k.val = k.val; rw [e1]; omega

/-- The second bias row's block is the array. -/
private theorem iblk2_4_apply (k : Fin 128) :
    (iblk2 V c 4 t : Vec Ideal S1x128 .f32) (ix2 (0 : Fin 1) k) = V c main_v34 (ix2 (0 : Fin 1) k) := by
  obtain ⟨-, -, -, -, ⟨e0, e1⟩, -⟩ := idx_facts2 t
  unfold iblk2
  rw [View.read_apply]
  show V c main_v34 _ = V c main_v34 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * k.val = k.val; rw [e1]; omega

/-- The last weights' block is the array. -/
private theorem iblk2_5_apply (r : Fin 128) (k : Fin 10) :
    (iblk2 V c 5 t : Vec Ideal S128x10 .f32) (ix2 r k) = V c main_arg15 (ix2 r k) := by
  obtain ⟨-, -, -, -, -, ⟨e0, e1⟩, -⟩ := idx_facts2 t
  unfold iblk2
  rw [View.read_apply]
  show V c main_arg15 _ = V c main_arg15 _
  congr 1
  funext a
  apply Fin.ext
  match a with
  | ⟨0, _⟩ => show win2_5.index t (0 : Fin 2) * 128 + 1 * r.val = r.val; rw [e0]; omega
  | ⟨1, _⟩ => show win2_5.index t (1 : Fin 2) * 10 + 1 * k.val = k.val; rw [e1]; omega

/-- The last bias row's block is the array. -/
private theorem iblk2_6_apply (k : Fin 10) :
    (iblk2 V c 6 t : Vec Ideal S1x10 .f32) (ix2 (0 : Fin 1) k) = V c main_v35 (ix2 (0 : Fin 1) k) := by
  obtain ⟨-, -, -, -, -, -, ⟨e0, e1⟩, -⟩ := idx_facts2 t
  unfold iblk2
  rw [View.read_apply]
  show V c main_v35 _ = V c main_v35 _
  congr 1
  funext a
  apply Fin.ext
  match a with
  | ⟨0, _⟩ => show win2_6.index t (0 : Fin 2) * 1 + 1 * 0 = 0; rw [e0]
  | ⟨1, _⟩ => show win2_6.index t (1 : Fin 2) * 10 + 1 * k.val = k.val; rw [e1]; omega

/-- The output block's entry `(p, q)` is the array's entry `(p, q)`. -/
private theorem emb2_7 (p : Fin 512) (q : Fin 10) :
    ((cfg2.win 7).blk t).view.emb (ix2 p q) = (ix2 p q : S512x10.Idx) := by
  obtain ⟨-, -, -, -, -, -, -, ⟨e0, e1⟩⟩ := idx_facts2 t
  funext a
  apply Fin.ext
  match a with
  | ⟨0, _⟩ => show win2_7.index t (0 : Fin 2) * 512 + 1 * p.val = p.val; rw [e0]; omega
  | ⟨1, _⟩ => show win2_7.index t (1 : Fin 2) * 10 + 1 * q.val = q.val; rw [e1]; omega

/-- What the one grid point writes back is the block of the head of the arrays the region finds. -/
private theorem flushed2_eq (b1 b2 : Cert.Gin.Arr1 128) (b3 : Cert.Gin.Arr1 10)
    (hb1 : ∀ k : Fin 128, V c main_v33 (ix2 (0 : Fin 1) k) = b1 (ix1 k))
    (hb2 : ∀ k : Fin 128, V c main_v34 (ix2 (0 : Fin 1) k) = b2 (ix1 k))
    (hb3 : ∀ k : Fin 10, V c main_v35 (ix2 (0 : Fin 1) k) = b3 (ix1 k)) :
    (dat2 (F := Ideal) V c).flushed 7 t = ((cfg2.win 7).blk t).view.read (Elt Ideal)
      (Cert.Gin.head (V c main_v32) (V c main_arg11) b1 (V c main_arg13) b2 (V c main_arg15) b3) := by
  show (cfg2.win 7).cut (grid2.coords t) ((dat2 V c).after 7 t) = _
  rw [after2_7]
  unfold out2_7
  rw [View.canon_unit_zero hz2]
  simp only [View.ld_unit_zero (S := S512x128) hz2, View.ld_unit_zero (S := S128x128) hz2, View.ld_unit_zero (S := S1x128) hz2,
    View.ld_unit_zero (S := S128x10) hz2, View.ld_unit_zero (S := S1x10) hz2]
  funext j
  obtain ⟨p, q, rfl⟩ : ∃ (p : Fin 512) (q : Fin 10), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t)
      (iblk2 V c 6 t) (ix2 p q)
    = Cert.Gin.head (V c main_v32) (V c main_arg11) b1 (V c main_arg13) b2 (V c main_arg15) b3
      (((cfg2.win 7).blk t).view.emb (ix2 p q))
  rw [emb2_7, pay2_apply, Cert.Gin.head_apply]
  simp only [iblk2_0_apply, iblk2_1_apply, iblk2_2_apply, iblk2_3_apply, iblk2_4_apply, iblk2_5_apply, iblk2_6_apply,
    hb1, hb2, hb3]

end Blocks

/-- An entry of the output array is in the grid point's block iff each coordinate is in the block's range on its axis. -/
private theorem mem_blk2 (t : Fin cfg2.N) (i : S512x10.Idx) :
    i ∈ ((cfg2.win 7).blk t).view.set ↔ ∀ a : Fin 2, win2_7.index t a * S512x10.size a ≤ (i a).val
      ∧ (i a).val < win2_7.index t a * S512x10.size a + S512x10.size a := by
  show i ∈ ((View.whole main_v36).slice (win2_7.rect t)).set ↔ _
  rw [View.set_slice_whole, Rect.mem_set_unit]
  exact Iff.rfl

/-- After region 2 its output array is the head of the arrays the region finds. -/
theorem arr2 (V : (c : Dev nD) → (b : Ref sig .tc) → Buf (Elt Ideal) ((c : Thread nD τ).loc b)) (c : Dev nD)
    (b1 b2 : Cert.Gin.Arr1 128) (b3 : Cert.Gin.Arr1 10)
    (hb1 : ∀ k : Fin 128, V c main_v33 (ix2 (0 : Fin 1) k) = b1 (ix1 k))
    (hb2 : ∀ k : Fin 128, V c main_v34 (ix2 (0 : Fin 1) k) = b2 (ix1 k))
    (hb3 : ∀ k : Fin 10, V c main_v35 (ix2 (0 : Fin 1) k) = b3 (ix1 k)) :
    (dat2 (F := Ideal) V c).arrAt 7 cfg2.N
      = Cert.Gin.head (V c main_v32) (V c main_arg11) b1 (V c main_arg13) b2 (V c main_arg15) b3 := by
  refine (dat2 (F := Ideal) V c).arrAt_eq_of_cover 7
    (Cert.Gin.head (V c main_v32) (V c main_arg11) b1 (V c main_arg13) b2 (V c main_arg15) b3)
    (fun t _ => flushed2_eq V c t b1 b2 b3 hb1 hb2 hb3) fun i => ⟨t2_0, flush2_7 t2_0, ?_⟩
  rw [mem_blk2]
  obtain ⟨-, -, -, -, -, -, -, ⟨e0, e1⟩⟩ := idx_facts2 t2_0
  intro a
  match a with
  | ⟨0, _⟩ =>
    show win2_7.index t2_0 (0 : Fin 2) * 512 ≤ (i 0).val ∧ (i 0).val < win2_7.index t2_0 (0 : Fin 2) * 512 + 512
    have h : (i 0).val < 512 := (i 0).isLt
    rw [e0]; omega
  | ⟨1, _⟩ =>
    show win2_7.index t2_0 (1 : Fin 2) * 10 ≤ (i 1).val ∧ (i 1).val < win2_7.index t2_0 (1 : Fin 2) * 10 + 10
    have h : (i 1).val < 10 := (i 1).isLt
    rw [e1]; omega

end Cert.KernelIdeal.Gin

end
-- ==== Proof.KernelValue.lean ====
/-
  What the idealized kernel's result buffer holds after the run, as one function of the argument arrays.

  The run's boundary contents are a fold: a stretch of host operations applies its operations in order, a region leaves
  its output array at one whole-array function of the arrays it found (a message-passing layer for the first two
  regions, the head for the third) and every other buffer as it was.  Walking the fold back from the result buffer:
  the head of the pooled second-layer features; the pooling is the host's scatter-add by graph id; each layer's
  aggregate is the host's scatter-add, by destination node, of the rows gathered by source node (a negative source
  index counting from the end); the edge table's two rows are slices of the edge argument; and an argument read at
  any boundary is the launch memory's, since no operation and no region writes an argument.
-/
import proofs.«124589_j40802189312202_1_alg».proof.Proof.Gen.KernelIdeal.Frame
import proofs.«124589_j40802189312202_1_alg».proof.Proof.Spec
import proofs.«124589_j40802189312202_1_alg».proof.Proof.LayerArray
import proofs.«124589_j40802189312202_1_alg».proof.Proof.HeadArray
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.KernelIdeal.Gin

open Cert.KernelIdeal Cert.KernelIdeal.Gen
open Idealize.ShloMosaic Idealize.ShloMosaic.TcCoe Idealize.SL.Sem Idealize.ShloMosaic.StableHlo
open Idealize.ShloMosaic.ValueIdx
open Idealize.ShloMosaic.Pipeline (Dat)

/-! ## A stretch leaves an unwritten buffer alone -/

/-- The buffers stretch 0 writes. -/
abbrev wr0 : List (Ref sig .tc) := [main_v0, main_v1, main_v2, main_v3, main_c, main_v4, main_v5, main_c_0, main_v6, main_v7, main_v8, main_v9, main_v10, main_cst, main_v11, main_v12, main_v13, main_v14, main_v15]

/-- Stretch 0 leaves a buffer it does not write as it found it. -/
theorem keep0 {F : FTy → Type} [FloatOps F] (W : Valuation τ sig (Elt F)) (b : Ref sig .tc) (hb : ∀ x ∈ wr0, x ≠ b) :
    StableHlo.after (hostOps0 (F := F)) W (Proc.devRef .tc b) = W (Proc.devRef .tc b) := by
  refine StableHlo.after_of_forall_not_mem (b := Proc.devRef .tc b) _ _ (List.forall_iff_forall_mem.mp ?_)
  simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals first
    | exact StableHlo.devRef_ne_of_ne (Ne.symm (hb _ (by decide)))
    | exact StableHlo.devRef_ne_of_ne (hb _ (by decide))

/-- The buffers stretch 1 writes. -/
abbrev wr1 : List (Ref sig .tc) := [main_c_1, main_v17, main_v18, main_c_2, main_v19, main_v20, main_v21, main_v22, main_v23, main_cst_3, main_v24, main_v25, main_v26, main_v27, main_v28]

/-- Stretch 1 leaves a buffer it does not write as it found it. -/
theorem keep1 {F : FTy → Type} [FloatOps F] (W : Valuation τ sig (Elt F)) (b : Ref sig .tc) (hb : ∀ x ∈ wr1, x ≠ b) :
    StableHlo.after (hostOps1 (F := F)) W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals first
    | exact StableHlo.devRef_ne_of_ne (Ne.symm (hb _ (by decide)))
    | exact StableHlo.devRef_ne_of_ne (hb _ (by decide))

/-- The buffers stretch 2 writes. -/
abbrev wr2 : List (Ref sig .tc) := [main_cst_4, main_v30, main_v31, main_v32, main_v33, main_v34, main_v35]

/-- Stretch 2 leaves a buffer it does not write as it found it. -/
theorem keep2 {F : FTy → Type} [FloatOps F] (W : Valuation τ sig (Elt F)) (b : Ref sig .tc) (hb : ∀ x ∈ wr2, x ≠ b) :
    StableHlo.after (hostOps2 (F := F)) W (Proc.devRef .tc b) = W (Proc.devRef .tc b) := by
  refine StableHlo.after_of_forall_not_mem (b := Proc.devRef .tc b) _ _ (List.forall_iff_forall_mem.mp ?_)
  simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals first
    | exact StableHlo.devRef_ne_of_ne (Ne.symm (hb _ (by decide)))
    | exact StableHlo.devRef_ne_of_ne (hb _ (by decide))

variable (m : (ℓ : Loc nD τ sig) → Buf (Elt Ideal) ℓ) (ρ : Dev nD → PrngReg)

/-! ## An argument read at any boundary is the launch memory's -/

theorem at1 (c : Dev nD) (b : Ref sig .tc) (h0 : ∀ x ∈ wr0, x ≠ b) :
    W1 m ρ c (Proc.devRef .tc b) = m ((c : Thread nD τ).loc b) :=
  keep0 (W0 m ρ c) b h0

theorem at2 (c : Dev nD) (b : Ref sig .tc) (h0 : ∀ x ∈ wr0, x ≠ b) (r0 : ∀ w, Pipeline.arrRef spec0 w ≠ b) :
    W2 m ρ c (Proc.devRef .tc b) = m ((c : Thread nD τ).loc b) :=
  (W2_of_ne m ρ c b r0).trans (at1 m ρ c b h0)

theorem at3 (c : Dev nD) (b : Ref sig .tc) (h0 : ∀ x ∈ wr0, x ≠ b) (r0 : ∀ w, Pipeline.arrRef spec0 w ≠ b)
    (h1 : ∀ x ∈ wr1, x ≠ b) : W3 m ρ c (Proc.devRef .tc b) = m ((c : Thread nD τ).loc b) :=
  (keep1 (W2 m ρ c) b h1).trans (at2 m ρ c b h0 r0)

theorem at4 (c : Dev nD) (b : Ref sig .tc) (h0 : ∀ x ∈ wr0, x ≠ b) (r0 : ∀ w, Pipeline.arrRef spec0 w ≠ b)
    (h1 : ∀ x ∈ wr1, x ≠ b) (r1 : ∀ w, Pipeline.arrRef spec1 w ≠ b) :
    W4 m ρ c (Proc.devRef .tc b) = m ((c : Thread nD τ).loc b) :=
  (W4_of_ne m ρ c b r1).trans (at3 m ρ c b h0 r0 h1)

theorem at5 (c : Dev nD) (b : Ref sig .tc) (h0 : ∀ x ∈ wr0, x ≠ b) (r0 : ∀ w, Pipeline.arrRef spec0 w ≠ b)
    (h1 : ∀ x ∈ wr1, x ≠ b) (r1 : ∀ w, Pipeline.arrRef spec1 w ≠ b) (h2 : ∀ x ∈ wr2, x ≠ b) :
    W5 m ρ c (Proc.devRef .tc b) = m ((c : Thread nD τ).loc b) :=
  (keep2 (W4 m ρ c) b h2).trans (at4 m ρ c b h0 r0 h1 r1)

/-! ## The host's functions between the regions -/

/-- Row 0 of the edge table (the source nodes) as a vector. -/
def edgeSrc (e : IVec S2x1600000 32) : IVec S1600000 32 :=
  shapeCast S1600000 (extractStridedSlice S1x1600000 ![0, 0] e slices_S2x1600000_S1x1600000_0_0) shapeCasts_S1x1600000_S1600000

/-- Row 1 of the edge table (the destination nodes) as a vector. -/
def edgeDst (e : IVec S2x1600000 32) : IVec S1600000 32 :=
  shapeCast S1600000 (extractStridedSlice S1x1600000 ![1, 0] e slices_S2x1600000_S1x1600000_1_0) shapeCasts_S1x1600000_S1600000

/-- A negative node index counts from the end. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The neighbourhood aggregate: the rows of `z` gathered by source node, added up by destination node. -/
def aggregate (z : FVec Ideal S100000x128 .f32) (e : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edgeDst e))
    (Host.gather gather_S100000x128_S1600000x1_S1600000x128_1_0_n_n_0_1_1128 z
      (broadcastInDim S1600000x1 ![0] bcast_S1600000_S1600000x1_0 (wrap (edgeSrc e))))

/-- The pooling: the rows of `h` added up by graph id. -/
def pool (h : FVec Ideal S100000x128 .f32) (g : IVec S100000 32) : FVec Ideal S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 g) h

/-- The first layer's output. -/
def hidden1 (c : Dev nD) : FVec Ideal S100000x128 .f32 :=
  Cert.Gin.layer (m ((c : Thread nD τ).loc main_arg0)) (aggregate (m ((c : Thread nD τ).loc main_arg0)) (m ((c : Thread nD τ).loc main_arg1)))
    (m ((c : Thread nD τ).loc main_arg3)) (m ((c : Thread nD τ).loc main_arg4)) (m ((c : Thread nD τ).loc main_arg5)) (m ((c : Thread nD τ).loc main_arg6))

/-- The second layer's output. -/
def hidden2 (c : Dev nD) : FVec Ideal S100000x128 .f32 :=
  Cert.Gin.layer (hidden1 m c) (aggregate (hidden1 m c) (m ((c : Thread nD τ).loc main_arg1)))
    (m ((c : Thread nD τ).loc main_arg7)) (m ((c : Thread nD τ).loc main_arg8)) (m ((c : Thread nD τ).loc main_arg9)) (m ((c : Thread nD τ).loc main_arg10))

/-- The network's output. -/
def output (c : Dev nD) : FVec Ideal S512x10 .f32 :=
  Cert.Gin.head (pool (hidden2 m c) (m ((c : Thread nD τ).loc main_arg2)))
    (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-! ## Region 0: the first layer -/

theorem src1 (c : Dev nD) : W1 m ρ c (Proc.devRef .tc main_v1) = edgeSrc (m ((c : Thread nD τ).loc main_arg1)) := by
  show StableHlo.after hostOps0 (W0 m ρ c) (Proc.devRef .tc main_v1) = _
  after_results
  rfl

theorem dst1 (c : Dev nD) : W1 m ρ c (Proc.devRef .tc main_v3) = edgeDst (m ((c : Thread nD τ).loc main_arg1)) := by
  show StableHlo.after hostOps0 (W0 m ρ c) (Proc.devRef .tc main_v3) = _
  after_results
  rfl

/-- The aggregate from its two index vectors, however they are spelt. -/
theorem aggregate_of (z : FVec Ideal S100000x128 .f32) (e : IVec S2x1600000 32) (s d : IVec S1600000 32)
    (hs : s = edgeSrc e) (hd : d = edgeDst e) :
    Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 z
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s)))
      = aggregate z e := by
  subst hs hd
  rfl

theorem agg1 (c : Dev nD) : V1 m ρ c main_v13 = aggregate (m ((c : Thread nD τ).loc main_arg0)) (m ((c : Thread nD τ).loc main_arg1)) := by
  show StableHlo.after hostOps0 (W0 m ρ c) (Proc.devRef .tc main_v13) = _
  after_results
  exact aggregate_of _ _ _ _ rfl rfl

theorem biasRow {n : Nat} (x : (⟨1, ![n]⟩ : Shape).Idx → EReal) (h : (⟨1, ![n]⟩ : Shape).ShapeCasts ⟨2, ![1, n]⟩) (k : Fin n) :
    shapeCast ⟨2, ![1, n]⟩ x h (ix2 (0 : Fin 1) k) = x (ix1 k) :=
  shapeCast_a_1a_apply x h 0 k

theorem b14 (c : Dev nD) (k : Fin 128) : V1 m ρ c main_v14 (ix2 (0 : Fin 1) k) = (m ((c : Thread nD τ).loc main_arg4)) (ix1 k) := by
  have e : V1 m ρ c main_v14 = shapeCast S1x128 (m ((c : Thread nD τ).loc main_arg4)) shapeCasts_S128_S1x128 := by
    show StableHlo.after hostOps0 (W0 m ρ c) (Proc.devRef .tc main_v14) = _
    after_results
    rfl
  rw [e]
  exact biasRow _ _ k

theorem b15 (c : Dev nD) (k : Fin 128) : V1 m ρ c main_v15 (ix2 (0 : Fin 1) k) = (m ((c : Thread nD τ).loc main_arg6)) (ix1 k) := by
  have e : V1 m ρ c main_v15 = shapeCast S1x128 (m ((c : Thread nD τ).loc main_arg6)) shapeCasts_S128_S1x128 := by
    show StableHlo.after hostOps0 (W0 m ρ c) (Proc.devRef .tc main_v15) = _
    after_results
    rfl
  rw [e]
  exact biasRow _ _ k

/-- After region 0 its output array is the first layer's output. -/
theorem out0 (c : Dev nD) : W2 m ρ c (Proc.devRef .tc main_v16) = hidden1 m c := by
  refine (W2_arr m ρ c 6).trans ((arr0 (V1 m ρ) c (m ((c : Thread nD τ).loc main_arg4)) (m ((c : Thread nD τ).loc main_arg6)) (b14 m ρ c) (b15 m ρ c)).trans ?_)
  unfold hidden1
  rw [agg1 m ρ c]
  rw [show V1 m ρ c main_arg0 = (m ((c : Thread nD τ).loc main_arg0)) from at1 m ρ c main_arg0 (by decide),
    show V1 m ρ c main_arg3 = (m ((c : Thread nD τ).loc main_arg3)) from at1 m ρ c main_arg3 (by decide),
    show V1 m ρ c main_arg5 = (m ((c : Thread nD τ).loc main_arg5)) from at1 m ρ c main_arg5 (by decide)]

/-! ## Region 1: the second layer -/

theorem src2 (c : Dev nD) : W2 m ρ c (Proc.devRef .tc main_v1) = edgeSrc (m ((c : Thread nD τ).loc main_arg1)) :=
  (W2_of_ne m ρ c main_v1 (by decide)).trans (src1 m ρ c)

theorem dst2 (c : Dev nD) : W2 m ρ c (Proc.devRef .tc main_v3) = edgeDst (m ((c : Thread nD τ).loc main_arg1)) :=
  (W2_of_ne m ρ c main_v3 (by decide)).trans (dst1 m ρ c)

/-- Region 1 finds the first layer's output where region 0 left it. -/
theorem in1 (c : Dev nD) : V3 m ρ c main_v16 = hidden1 m c :=
  (keep1 (W2 m ρ c) main_v16 (by decide)).trans (out0 m ρ c)

theorem agg2 (c : Dev nD) : V3 m ρ c main_v26 = aggregate (hidden1 m c) (m ((c : Thread nD τ).loc main_arg1)) := by
  show StableHlo.after hostOps1 (W2 m ρ c) (Proc.devRef .tc main_v26) = _
  after_results
  rw [out0 m ρ c]
  exact aggregate_of _ _ _ _ (src2 m ρ c) (dst2 m ρ c)

theorem b27 (c : Dev nD) (k : Fin 128) : V3 m ρ c main_v27 (ix2 (0 : Fin 1) k) = (m ((c : Thread nD τ).loc main_arg8)) (ix1 k) := by
  have e : V3 m ρ c main_v27 = shapeCast S1x128 (m ((c : Thread nD τ).loc main_arg8)) shapeCasts_S128_S1x128 := by
    show StableHlo.after hostOps1 (W2 m ρ c) (Proc.devRef .tc main_v27) = _
    after_results
    rw [at2 m ρ c main_arg8 (by decide) (by decide)]
    rfl
  rw [e]
  exact biasRow _ _ k

theorem b28 (c : Dev nD) (k : Fin 128) : V3 m ρ c main_v28 (ix2 (0 : Fin 1) k) = (m ((c : Thread nD τ).loc main_arg10)) (ix1 k) := by
  have e : V3 m ρ c main_v28 = shapeCast S1x128 (m ((c : Thread nD τ).loc main_arg10)) shapeCasts_S128_S1x128 := by
    show StableHlo.after hostOps1 (W2 m ρ c) (Proc.devRef .tc main_v28) = _
    after_results
    rw [at2 m ρ c main_arg10 (by decide) (by decide)]
    rfl
  rw [e]
  exact biasRow _ _ k

/-- After region 1 its output array is the second layer's output. -/
theorem out1 (c : Dev nD) : W4 m ρ c (Proc.devRef .tc main_v29) = hidden2 m c := by
  refine (W4_arr m ρ c 6).trans ((arr1 (V3 m ρ) c (m ((c : Thread nD τ).loc main_arg8)) (m ((c : Thread nD τ).loc main_arg10)) (b27 m ρ c) (b28 m ρ c)).trans ?_)
  unfold hidden2
  rw [agg2 m ρ c, in1 m ρ c]
  rw [show V3 m ρ c main_arg7 = (m ((c : Thread nD τ).loc main_arg7)) from at3 m ρ c main_arg7 (by decide) (by decide) (by decide),
    show V3 m ρ c main_arg9 = (m ((c : Thread nD τ).loc main_arg9)) from at3 m ρ c main_arg9 (by decide) (by decide) (by decide)]

/-! ## Region 2: the pooling and the head -/

theorem pooled (c : Dev nD) : V5 m ρ c main_v32 = pool (hidden2 m c) (m ((c : Thread nD τ).loc main_arg2)) := by
  show StableHlo.after hostOps2 (W4 m ρ c) (Proc.devRef .tc main_v32) = _
  after_results
  rw [out1 m ρ c, at4 m ρ c main_arg2 (by decide) (by decide) (by decide) (by decide)]
  rfl

theorem b33 (c : Dev nD) (k : Fin 128) : V5 m ρ c main_v33 (ix2 (0 : Fin 1) k) = (m ((c : Thread nD τ).loc main_arg12)) (ix1 k) := by
  have e : V5 m ρ c main_v33 = shapeCast S1x128 (m ((c : Thread nD τ).loc main_arg12)) shapeCasts_S128_S1x128 := by
    show StableHlo.after hostOps2 (W4 m ρ c) (Proc.devRef .tc main_v33) = _
    after_results
    rw [at4 m ρ c main_arg12 (by decide) (by decide) (by decide) (by decide)]
    rfl
  rw [e]
  exact biasRow _ _ k

theorem b34 (c : Dev nD) (k : Fin 128) : V5 m ρ c main_v34 (ix2 (0 : Fin 1) k) = (m ((c : Thread nD τ).loc main_arg14)) (ix1 k) := by
  have e : V5 m ρ c main_v34 = shapeCast S1x128 (m ((c : Thread nD τ).loc main_arg14)) shapeCasts_S128_S1x128 := by
    show StableHlo.after hostOps2 (W4 m ρ c) (Proc.devRef .tc main_v34) = _
    after_results
    rw [at4 m ρ c main_arg14 (by decide) (by decide) (by decide) (by decide)]
    rfl
  rw [e]
  exact biasRow _ _ k

theorem b35 (c : Dev nD) (k : Fin 10) : V5 m ρ c main_v35 (ix2 (0 : Fin 1) k) = (m ((c : Thread nD τ).loc main_arg16)) (ix1 k) := by
  have e : V5 m ρ c main_v35 = shapeCast S1x10 (m ((c : Thread nD τ).loc main_arg16)) shapeCasts_S10_S1x10 := by
    show StableHlo.after hostOps2 (W4 m ρ c) (Proc.devRef .tc main_v35) = _
    after_results
    rw [at4 m ρ c main_arg16 (by decide) (by decide) (by decide) (by decide)]
    rfl
  rw [e]
  exact biasRow _ _ k

/-- After the run the result buffer holds the network's output. -/
theorem result (c : Dev nD) : W6 m ρ c (Proc.devRef .tc main_v36) = output m c := by
  refine (W6_arr m ρ c 7).trans ((arr2 (V5 m ρ) c (m ((c : Thread nD τ).loc main_arg12)) (m ((c : Thread nD τ).loc main_arg14)) (m ((c : Thread nD τ).loc main_arg16))
    (b33 m ρ c) (b34 m ρ c) (b35 m ρ c)).trans ?_)
  unfold output
  rw [pooled m ρ c]
  rw [show V5 m ρ c main_arg11 = (m ((c : Thread nD τ).loc main_arg11)) from at5 m ρ c main_arg11 (by decide) (by decide) (by decide) (by decide) (by decide),
    show V5 m ρ c main_arg13 = (m ((c : Thread nD τ).loc main_arg13)) from at5 m ρ c main_arg13 (by decide) (by decide) (by decide) (by decide) (by decide),
    show V5 m ρ c main_arg15 = (m ((c : Thread nD τ).loc main_arg15)) from at5 m ρ c main_arg15 (by decide) (by decide) (by decide) (by decide) (by decide)]

/-- The network as one function of its seventeen argument arrays. -/
def network (x : FVec Ideal S100000x128 .f32) (e : IVec S2x1600000 32) (g : IVec S100000 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (w4 : FVec Ideal S128x128 .f32) (b4 : FVec Ideal S128 .f32)
    (w5 : FVec Ideal S128x128 .f32) (b5 : FVec Ideal S128 .f32) (w6 : FVec Ideal S128x128 .f32) (b6 : FVec Ideal S128 .f32)
    (w7 : FVec Ideal S128x10 .f32) (b7 : FVec Ideal S10 .f32) : FVec Ideal S512x10 .f32 :=
  Cert.Gin.head
    (pool (Cert.Gin.layer (Cert.Gin.layer x (aggregate x e) w1 b1 w2 b2)
      (aggregate (Cert.Gin.layer x (aggregate x e) w1 b1 w2 b2) e) w3 b3 w4 b4) g)
    w5 b5 w6 b6 w7 b7

/-- The network's output is the network function of the launch memory's argument arrays. -/
theorem output_eq (c : Dev nD) : output m c = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := rfl

end Cert.KernelIdeal.Gin

end
-- ==== Proof.RefHost.lean ====
/-
  The reference's chain of whole-array operations for one message-passing layer, and for the head, is the
  specification's function of the same operands.

  Read at an entry `(p, q)`: a matrix product is the sum over the contracted coordinate of the products of the entries; a
  bias vector laid out as one row and repeated down the rows is its entry `q`; the zero scalar repeated over the array
  is `0`; sums and maxima are entry by entry. Composing these readings from the outside in gives, term for term, the
  nested sums of `Cert.Gin.layer_apply` and `Cert.Gin.head_apply`. The contracted coordinate is never split and no sum
  is rearranged, so nothing asks the entries to be finite.
-/
import proofs.«124589_j40802189312202_1_alg».proof.Proof.Gen.ReferenceIdeal
import proofs.«124589_j40802189312202_1_alg».proof.Proof.Spec
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.Gin
open Cert.ReferenceIdeal Cert.ReferenceIdeal.Gen Idealize.ShloMosaic Idealize.ShloMosaic.TcCoe Idealize.ShloMosaic.ValueIdx

/-! ## The matrix product at an index

  Entry `(p, q)` of a rows-by-contraction times contraction-by-columns product is `∑ k, l (p, k) * r (k, q)`: the one
  contracted axis is the left operand's second and the right operand's first, and there is no batch axis. -/

theorem dot_nodes_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) :=
  StackMember.dotGeneral_plain_apply none l r p q

theorem dot_graphs_apply (l : FVec Ideal S512x128 .f32) (r : FVec Ideal S128x128 .f32) (p : Fin 512) (q : Fin 128) :
    Host.dotGeneral (F := Ideal) dot_S512x128_S128x128_S512x128_1_0_0_1_n_n none l r (ix2 p q)
      = ∑ k : Fin 128, l (ix2 p k) * r (ix2 k q) :=
  StackMember.dotGeneral_plain_apply none l r p q

theorem dot_out_apply (l : FVec Ideal S512x128 .f32) (r : FVec Ideal S128x10 .f32) (p : Fin 512) (q : Fin 10) :
    Host.dotGeneral (F := Ideal) dot_S512x128_S128x10_S512x10_1_0_0_1_n_n none l r (ix2 p q)
      = ∑ k : Fin 128, l (ix2 p k) * r (ix2 k q) :=
  StackMember.dotGeneral_plain_apply none l r p q

/-! ## The bias row at an index

  A vector `b` laid out as a one-row array and then repeated down every row reads `b q` at entry `(p, q)`. -/

theorem row128_apply (b : FVec Ideal S128 .f32) (q : Fin 128) :
    broadcastInDim S1x128 ![1] bcast_S128_S1x128_1 b (ix2 (0 : Fin 1) q) = b (ix1 q) :=
  broadcastInDim_apply _ bcast_S128_S1x128_1 b (ix2 (0 : Fin 1) q) (ix1 q) (fun a => match a with
    | ⟨0, _⟩ => by show q.val = if (128 : Nat) = 1 then 0 else q.val; rw [if_neg (by decide)])

theorem row10_apply (b : FVec Ideal S10 .f32) (q : Fin 10) :
    broadcastInDim S1x10 ![1] bcast_S10_S1x10_1 b (ix2 (0 : Fin 1) q) = b (ix1 q) :=
  broadcastInDim_apply _ bcast_S10_S1x10_1 b (ix2 (0 : Fin 1) q) (ix1 q) (fun a => match a with
    | ⟨0, _⟩ => by show q.val = if (10 : Nat) = 1 then 0 else q.val; rw [if_neg (by decide)])

theorem bias_nodes_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) :=
  (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans (row128_apply b q)

theorem bias_graphs_apply (b : FVec Ideal S128 .f32) (p : Fin 512) (q : Fin 128) :
    broadcastInDim S512x128 ![0, 1] bcast_S1x128_S512x128_0_1 (broadcastInDim S1x128 ![1] bcast_S128_S1x128_1 b) (ix2 p q)
      = b (ix1 q) :=
  (broadcastInDim_apply _ bcast_S1x128_S512x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans (row128_apply b q)

theorem bias_out_apply (b : FVec Ideal S10 .f32) (p : Fin 512) (q : Fin 10) :
    broadcastInDim S512x10 ![0, 1] bcast_S1x10_S512x10_0_1 (broadcastInDim S1x10 ![1] bcast_S10_S1x10_1 b) (ix2 p q)
      = b (ix1 q) :=
  (broadcastInDim_apply _ bcast_S1x10_S512x10_0_1 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans (row10_apply b q)

/-! ## The zero array at an index

  The scalar whose word is all zero bits, repeated over the whole array, reads the extended real `0` at every entry. -/

theorem zero_nodes_apply (p : Fin 100000) (q : Fin 128) :
    broadcastInDim S100000x128 ![] bcast_S_S100000x128 (constant (F := Ideal) S_ .f32 0x00000000#32) (ix2 p q) = 0 :=
  (broadcastInDim_apply _ bcast_S_S100000x128 _ (ix2 p q) ix0 (fun a => a.elim0)).trans Ideal.ofBits_zero_f32

theorem zero_graphs_apply (p : Fin 512) (q : Fin 128) :
    broadcastInDim S512x128 ![] bcast_S_S512x128 (constant (F := Ideal) S_ .f32 0x00000000#32) (ix2 p q) = 0 :=
  (broadcastInDim_apply _ bcast_S_S512x128 _ (ix2 p q) ix0 (fun a => a.elim0)).trans Ideal.ofBits_zero_f32

/-! ## The two chains -/

theorem layer_host (z a : FVec Ideal S100000x128 .f32) (w1 : FVec Ideal S128x128 .f32) (b1 : FVec Ideal S128 .f32)
    (w2 : FVec Ideal S128x128 .f32) (b2 : FVec Ideal S128 .f32) :
    maximumf (addf (Host.dotGeneral dot_S100000x128_S128x128_S100000x128_1_0_0_1_n_n none
        (maximumf (addf (Host.dotGeneral dot_S100000x128_S128x128_S100000x128_1_0_0_1_n_n none (addf z a) w1)
            (broadcastInDim S100000x128 ![0, 1] bcast_S1x128_S100000x128_0_1 (broadcastInDim S1x128 ![1] bcast_S128_S1x128_1 b1)))
          (broadcastInDim S100000x128 ![] bcast_S_S100000x128 (constant (F := Ideal) S_ .f32 0x00000000#32))) w2)
        (broadcastInDim S100000x128 ![0, 1] bcast_S1x128_S100000x128_0_1 (broadcastInDim S1x128 ![1] bcast_S128_S1x128_1 b2)))
      (broadcastInDim S100000x128 ![] bcast_S_S100000x128 (constant (F := Ideal) S_ .f32 0x00000000#32))
    = Cert.Gin.layer z a w1 b1 w2 b2 := by
  funext i
  obtain ⟨p, q, rfl⟩ : ∃ (p : Fin 100000) (q : Fin 128), i = ix2 p q := ⟨i 0, i 1, eq_ix2 i⟩
  rw [Cert.Gin.layer_apply, maximumf_apply, addf_apply, dot_nodes_apply, bias_nodes_apply, zero_nodes_apply]
  refine congrArg (fun s => max (s + b2 (ix1 q)) 0) (Finset.sum_congr rfl fun k _ => ?_)
  rw [maximumf_apply, addf_apply, dot_nodes_apply, bias_nodes_apply, zero_nodes_apply]
  rfl

theorem head_host (g : FVec Ideal S512x128 .f32) (w1 : FVec Ideal S128x128 .f32) (b1 : FVec Ideal S128 .f32)
    (w2 : FVec Ideal S128x128 .f32) (b2 : FVec Ideal S128 .f32) (w3 : FVec Ideal S128x10 .f32) (b3 : FVec Ideal S10 .f32) :
    addf (Host.dotGeneral dot_S512x128_S128x10_S512x10_1_0_0_1_n_n none
        (maximumf (addf (Host.dotGeneral dot_S512x128_S128x128_S512x128_1_0_0_1_n_n none
            (maximumf (addf (Host.dotGeneral dot_S512x128_S128x128_S512x128_1_0_0_1_n_n none g w1)
                (broadcastInDim S512x128 ![0, 1] bcast_S1x128_S512x128_0_1 (broadcastInDim S1x128 ![1] bcast_S128_S1x128_1 b1)))
              (broadcastInDim S512x128 ![] bcast_S_S512x128 (constant (F := Ideal) S_ .f32 0x00000000#32))) w2)
            (broadcastInDim S512x128 ![0, 1] bcast_S1x128_S512x128_0_1 (broadcastInDim S1x128 ![1] bcast_S128_S1x128_1 b2)))
          (broadcastInDim S512x128 ![] bcast_S_S512x128 (constant (F := Ideal) S_ .f32 0x00000000#32))) w3)
      (broadcastInDim S512x10 ![0, 1] bcast_S1x10_S512x10_0_1 (broadcastInDim S1x10 ![1] bcast_S10_S1x10_1 b3))
    = Cert.Gin.head g w1 b1 w2 b2 w3 b3 := by
  funext i
  obtain ⟨p, q, rfl⟩ : ∃ (p : Fin 512) (q : Fin 10), i = ix2 p q := ⟨i 0, i 1, eq_ix2 i⟩
  rw [Cert.Gin.head_apply, addf_apply, dot_out_apply, bias_out_apply]
  refine congrArg (fun s => s + b3 (ix1 q)) (Finset.sum_congr rfl fun k _ => ?_)
  rw [maximumf_apply, addf_apply, dot_graphs_apply, bias_graphs_apply, zero_graphs_apply]
  refine congrArg (fun s => max (s + b2 (ix1 k)) 0 * w3 (ix2 k q)) (Finset.sum_congr rfl fun k' _ => ?_)
  rw [maximumf_apply, addf_apply, dot_graphs_apply, bias_graphs_apply, zero_graphs_apply]

end Cert.ReferenceIdeal.Gin

end
-- ==== Proof.RefValue.lean ====
/-
  What the idealized reference's result buffer holds after its run, as the same function of the argument arrays.

  The reference's run ends with its result at the composed term of its operations.  In that term the chain "sum of
  features and aggregate, matrix product, bias, maximum with zero, matrix product, bias, maximum with zero" occurs
  twice, once over the input features and once over the first layer's output, and the chain of the head once over the
  pooled features; each is the specification's function of its operands.  What is left around them are the host's
  gather and scatter-add, the same operations the kernel's program applies between its regions.
-/
import proofs.«124589_j40802189312202_1_alg».proof.Proof.Gen.ReferenceIdeal.Run
import proofs.«124589_j40802189312202_1_alg».proof.Proof.Spec
import proofs.«124589_j40802189312202_1_alg».proof.Proof.RefHost
import Idealize.ShloMosaic.Lib.ValueIdx
import Idealize.ShloMosaic.PureOps.Ideal

set_option maxRecDepth 16384

noncomputable section

namespace Cert.ReferenceIdeal.Gin

open Cert.ReferenceIdeal Cert.ReferenceIdeal.Gen
open Idealize.ShloMosaic Idealize.ShloMosaic.TcCoe Idealize.SL.Sem Idealize.ShloMosaic.StableHlo
open Idealize.ShloMosaic.ValueIdx

/-! ## The host's functions around the layers -/

/-- Row 0 of the edge table (the source nodes) as a vector. -/
def edgeSrc (e : IVec S2x1600000 32) : IVec S1600000 32 :=
  shapeCast S1600000 (extractStridedSlice S1x1600000 ![0, 0] e slices_S2x1600000_S1x1600000_0_0) shapeCasts_S1x1600000_S1600000

/-- Row 1 of the edge table (the destination nodes) as a vector. -/
def edgeDst (e : IVec S2x1600000 32) : IVec S1600000 32 :=
  shapeCast S1600000 (extractStridedSlice S1x1600000 ![1, 0] e slices_S2x1600000_S1x1600000_1_0) shapeCasts_S1x1600000_S1600000

/-- A negative node index counts from the end. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The neighbourhood aggregate: the rows of `z` gathered by source node, added up by destination node. -/
def aggregate (z : FVec Ideal S100000x128 .f32) (e : IVec S2x1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edgeDst e))
    (Host.gather gather_S100000x128_S1600000x1_S1600000x128_1_0_n_n_0_1_1128 z
      (broadcastInDim S1600000x1 ![0] bcast_S1600000_S1600000x1_0 (wrap (edgeSrc e))))

/-- The pooling: the rows of `h` added up by graph id. -/
def pool (h : FVec Ideal S100000x128 .f32) (g : IVec S100000 32) : FVec Ideal S512x128 .f32 :=
  Host.scatterAdd (F := Ideal) scatter_S512x128_S100000x1_S100000x128_1_0_0_1
    (broadcastInDim S512x128 ![] bcast_S_S512x128 (constant (F := Ideal) S_ .f32 0x00000000#32))
    (broadcastInDim S100000x1 ![0] bcast_S100000_S100000x1_0 g) h

/-- The network as one function of its seventeen argument arrays. -/
def network (x : FVec Ideal S100000x128 .f32) (e : IVec S2x1600000 32) (g : IVec S100000 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (w4 : FVec Ideal S128x128 .f32) (b4 : FVec Ideal S128 .f32)
    (w5 : FVec Ideal S128x128 .f32) (b5 : FVec Ideal S128 .f32) (w6 : FVec Ideal S128x128 .f32) (b6 : FVec Ideal S128 .f32)
    (w7 : FVec Ideal S128x10 .f32) (b7 : FVec Ideal S10 .f32) : FVec Ideal S512x10 .f32 :=
  Cert.Gin.head
    (pool (Cert.Gin.layer (Cert.Gin.layer x (aggregate x e) w1 b1 w2 b2)
      (aggregate (Cert.Gin.layer x (aggregate x e) w1 b1 w2 b2) e) w3 b3 w4 b4) g)
    w5 b5 w6 b6 w7 b7

variable (m : (ℓ : Loc nD τ sig) → Buf (Elt Ideal) ℓ)

/-- The reference's result term is the network function of the launch memory's argument arrays. -/
theorem result (c : Dev nD) :
    Cert.ReferenceIdeal.Value.res_main_v62 (F := Ideal) m c = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Cert.ReferenceIdeal.Value.res_main_v62
  rw [head_host, layer_host, layer_host]
  rfl

end Cert.ReferenceIdeal.Gin

end
-- ==== Proof.lean ====
/-
  The certificate's claim: a two-layer message-passing network with sum pooling and a small head, written as three
  pipelined kernels with the host's gather and scatter-add between them, computes what its plain reference computes,
  over the extended reals.

  Both programs apply the same host operations around the dense parts: the neighbourhood aggregate is the scatter-add,
  by destination node, of the feature rows gathered by source node, and the pooling is the scatter-add by graph id.
  The dense parts are where they differ in form.  The reference applies, to whole arrays, "add the aggregate, multiply
  by a weight matrix, add a bias, take the maximum with zero", twice per layer, and the same once more without the last
  maximum in the head.  The kernels do this block by block: twenty blocks of 5000 node rows for each layer, one block
  for the head.  Row `r` of a product depends only on row `r` of its left factor, and the contracted index runs over
  all 128 columns inside every block, so the blocks of rows are restrictions of one whole-array function and no sum is
  split or reordered.  The two results are therefore the same function of the argument arrays, entry by entry; the
  entries may be infinite, and nothing here asks otherwise.

  The frames of the two kernel programs are the generated ones.  The reference's frame is its generated run with the
  result dropped.  The idealization rewrote no operation, so there is nothing to preserve.  For the value claim the
  kernel's run names its result buffer at the last segment boundary's contents (KernelRun), those contents are the
  network function of the arguments (KernelValue, over LayerPayload, LayerArray and HeadArray), the reference's
  result term is the same function (RefValue, over RefHost), and the two programs' spellings of the host operations
  agree by unfolding.
-/
import proofs.«124589_j40802189312202_1_alg».proof.Defs
import proofs.«124589_j40802189312202_1_alg».proof.Proof.Gen.Kernel
import proofs.«124589_j40802189312202_1_alg».proof.Proof.Gen.Kernel.Skeleton
import proofs.«124589_j40802189312202_1_alg».proof.Proof.Gen.Kernel.Launch
import proofs.«124589_j40802189312202_1_alg».proof.Proof.Gen.Kernel.Points
import proofs.«124589_j40802189312202_1_alg».proof.Proof.Gen.Kernel.Frame
import proofs.«124589_j40802189312202_1_alg».proof.Proof.Gen.KernelIdeal
import proofs.«124589_j40802189312202_1_alg».proof.Proof.Gen.KernelIdeal.Skeleton
import proofs.«124589_j40802189312202_1_alg».proof.Proof.Gen.KernelIdeal.Launch
import proofs.«124589_j40802189312202_1_alg».proof.Proof.Gen.KernelIdeal.Points
import proofs.«124589_j40802189312202_1_alg».proof.Proof.Gen.KernelIdeal.Frame
import proofs.«124589_j40802189312202_1_alg».proof.Proof.Gen.ReferenceIdeal
import proofs.«124589_j40802189312202_1_alg».proof.Proof.Gen.ReferenceIdeal.Run
import proofs.«124589_j40802189312202_1_alg».proof.Proof.Gen.ReferenceIdeal.Read
import proofs.«124589_j40802189312202_1_alg».proof.Proof.Gen.Pre_finite_inputs
import proofs.«124589_j40802189312202_1_alg».proof.Proof.KernelRun
import proofs.«124589_j40802189312202_1_alg».proof.Proof.KernelValue
import proofs.«124589_j40802189312202_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The two programs print the same network function: their gather, scatter-add, slice and broadcast records are the
    same data. -/
theorem network_same : @Cert.ReferenceIdeal.Gin.network = @Cert.KernelIdeal.Gin.network := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- From memories that agree on the arguments both programs run and end with the network function of those
    arguments in their result buffers, the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gin.output m c, ?_, ?_⟩
  · exact (θ_run Cert.KernelIdeal.defs _ _).mono
      (fun r h c => ⟨(h c).1.trans (Cert.KernelIdeal.Gin.result m ρ c), (h c).2⟩)
      (Cert.KernelIdeal.Gin.run_last m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    show _ = Cert.KernelIdeal.Gin.output m c
    rw [Cert.ReferenceIdeal.Gin.result m' c, Cert.KernelIdeal.Gin.output_eq m c, network_same,
      h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
